-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4 : Shape := ⟨2, ![50000, 4]⟩
abbrev S640000 : Shape := ⟨1, ![640000]⟩
abbrev S4x128 : Shape := ⟨2, ![4, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x4 : S_.BroadcastsInDim S50000x4 (![] : Fin 0 → Fin S50000x4.rank)
  reducesTo_S50000x4_S_d0_1 : S50000x4.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S3x128 .f32) (main_arg7 : FVec F S128x128 .f32) (main_arg8 : FVec F S128 .f32) (main_arg9 : FVec F S128x1 .f32) (main_arg10 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x4 .f32) (main_arg1 : IVec S640000 32) (main_arg2 : IVec S640000 32) (main_arg3 : FVec F S4x128 .f32) (main_arg4 : FVec F S128 .f32) (main_arg5 : FVec F S3x128x128 .f32) (main_arg6 : FVec F S3x128 .f32) (main_arg7 : FVec F S128x128 .f32) (main_arg8 : FVec F S128 .f32) (main_arg9 : FVec F S128x1 .f32) (main_arg10 : FVec F S1 .f32) : IVec S_ 1 :=
  let main_v0 : FVec F S50000x4 .f32 := Host.absf main_arg0
  let main_cst : FVec F S_ .f32 := constant S_ .f32 0x7F800000#32
  let main_v1 : FVec F S50000x4 .f32 := broadcastInDim S50000x4 ![] bcast_S_S50000x4 main_cst
  let main_v2 : IVec S50000x4 1 := cmpf .olt main_v0 main_v1
  let main_c : IVec S_ 1 := constantI S_ 1 1#1
  let main_v3 : IVec S_ 1 := (fun x v => Host.reduce IntOp.andi x v reducesTo_S50000x4_S_d0_1 h_S_) main_v2 main_c
  let main_v4 : FVec F S4x128 .f32 := Host.absf main_arg3
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_v13 main_v16
-- ==== Kernel.lean ====
abbrev S50000x4 : Shape := ⟨2, ![50000, 4]⟩
abbrev S640000 : Shape := ⟨1, ![640000]⟩
abbrev S4x128 : Shape := ⟨2, ![4, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x1 : Shape := ⟨2, ![128, 1]⟩
abbrev S1 : Shape := ⟨1, ![1]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S50000x128 : Shape := ⟨2, ![50000, 128]⟩
abbrev S5000x4 : Shape := ⟨2, ![5000, 4]⟩
abbrev S5000x1 : Shape := ⟨2, ![5000, 1]⟩
abbrev S5000x128 : Shape := ⟨2, ![5000, 128]⟩
abbrev S1x128 : Shape := ⟨2, ![1, 128]⟩
abbrev S640000x128 : Shape := ⟨2, ![640000, 128]⟩
abbrev S1x128x128 : Shape := ⟨3, ![1, 128, 128]⟩
abbrev S1x1 : Shape := ⟨2, ![1, 1]⟩

abbrev nBuf : Space → Nat
  | .hbm => 102
  | .vmem => 50
  | .smem => 0
  | _ => 0

abbrev bufTy : (tb : Table) → Fin (tcTables nBuf tb) → BufTy
  | .hbm, ⟨0, _⟩ => ⟨S50000x4, .f32⟩
  | .hbm, ⟨1, _⟩ => ⟨S640000, .i32⟩
  | .hbm, ⟨2, _⟩ => ⟨S640000, .i32⟩
  | .hbm, ⟨3, _⟩ => ⟨S4x128, .f32⟩
  | .hbm, ⟨4, _⟩ => ⟨S128, .f32⟩
  | .hbm, ⟨5, _⟩ => ⟨S3x128x128, .f32⟩
  | .hbm, ⟨6, _⟩ => ⟨S3x128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S_, .f32⟩
  | .hbm, ⟨12, _⟩ => ⟨S640000, .f32⟩
  | .hbm, ⟨13, _⟩ => ⟨S_, .f32⟩
  | .hbm, ⟨14, _⟩ => ⟨S50000, .f32⟩
  | .hbm, ⟨15, _⟩ => ⟨S640000x1, .i32⟩
  | .hbm, ⟨16, _⟩ => ⟨S50000, .f32⟩
  | .hbm, ⟨17, _⟩ => ⟨S_, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S640000x1, .i32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x128, .bf16⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .bf16⟩
  | .hbm, ⟨49, _⟩ => ⟨S640000x128, .f32⟩
  | .hbm, ⟨50, _⟩ => ⟨S_, .f32⟩
  | .hbm, ⟨51, _⟩ => ⟨S50000x128, .f32⟩
  | .hbm, ⟨52, _⟩ => ⟨S640000x1, .i32⟩
  | .hbm, ⟨53, _⟩ => ⟨S50000x128, .f32⟩
  | .hbm, ⟨54, _⟩ => ⟨S1x128x128, .f32⟩
  | .hbm, ⟨55, _⟩ => ⟨S128x128, .f32⟩
  | .hbm, ⟨56, _⟩ => ⟨S1x128, .f32⟩
  | .hbm, ⟨57, _⟩ => ⟨S128, .f32⟩
  | .hbm, ⟨58, _⟩ => ⟨S50000x128, .f32⟩
  | .hbm, ⟨59, _⟩ => ⟨S50000x128, .f32⟩
  | .hbm, ⟨60, _⟩ => ⟨S50000x128, .bf16⟩
  | .hbm, ⟨61, _⟩ => ⟨S_, .i32⟩
  | .hbm, ⟨62, _⟩ => ⟨S640000, .i32⟩
  | .hbm, ⟨63, _⟩ => ⟨S640000, .i1⟩
  | .hbm, ⟨64, _⟩ => ⟨S_, .i32⟩
  | .hbm, ⟨65, _⟩ => ⟨S640000, .i32⟩
  | .hbm, ⟨66, _⟩ => ⟨S640000, .i32⟩
  | .hbm, ⟨67, _⟩ => ⟨S640000, .i32⟩
  | .hbm, ⟨68, _⟩ => ⟨S640000x1, .i32⟩
  | .hbm, ⟨69, _⟩ => ⟨S640000x128, .bf16⟩
  | .hbm, ⟨70, _⟩ => ⟨S640000x128, .f32⟩
  | .hbm, ⟨71, _⟩ => ⟨S_, .f32⟩
  | .hbm, ⟨72, _⟩ => ⟨S50000x128, .f32⟩
  | .hbm, ⟨73, _⟩ => ⟨S640000x1, .i32⟩
  | .hbm, ⟨74, _⟩ => ⟨S50000x128, .f32⟩
  | .hbm, ⟨75, _⟩ => ⟨S1x128x128, .f32⟩
  | .hbm, ⟨76, _⟩ => ⟨S128x128, .f32⟩
  | .hbm, ⟨77, _⟩ => ⟨S1x128, .f32⟩
  | .hbm, ⟨78, _⟩ => ⟨S128, .f32⟩
  | .hbm, ⟨79, _⟩ => ⟨S50000x128, .f32⟩
  | .hbm, ⟨80, _⟩ => ⟨S50000x128, .f32⟩
  | .hbm, ⟨81, _⟩ => ⟨S50000x128, .bf16⟩
  | .hbm, ⟨82, _⟩ => ⟨S_, .i32⟩
  | .hbm, ⟨83, _⟩ => ⟨S640000, .i32⟩
  | .hbm, ⟨84, _⟩ => ⟨S640000, .i1⟩
  | .hbm, ⟨85, _⟩ => ⟨S_, .i32⟩
  | .hbm, ⟨86, _⟩ => ⟨S640000, .i32⟩
  | .hbm, ⟨87, _⟩ => ⟨S640000, .i32⟩
  | .hbm, ⟨88, _⟩ => ⟨S640000, .i32⟩
  | .hbm, ⟨89, _⟩ => ⟨S640000x1, .i32⟩
  | .hbm, ⟨90, _⟩ => ⟨S640000x128, .bf16⟩
  | .hbm, ⟨91, _⟩ => ⟨S640000x128, .f32⟩
  | .hbm, ⟨92, _⟩ => ⟨S_, .f32⟩
  | .hbm, ⟨93, _⟩ => ⟨S50000x128, .f32⟩
  | .hbm, ⟨94, _⟩ => ⟨S640000x1, .i32⟩
  | .hbm, ⟨95, _⟩ => ⟨S50000x128, .f32⟩
  | .hbm, ⟨96, _⟩ => ⟨S1x128x128, .f32⟩
  | .hbm, ⟨97, _⟩ => ⟨S128x128, .f32⟩
  | .hbm, ⟨98, _⟩ => ⟨S1x128, .f32⟩
  | .hbm, ⟨99, _⟩ => ⟨S128, .f32⟩
  | .hbm, ⟨100, _⟩ => ⟨S50000x128, .f32⟩
  | .hbm, ⟨101, _⟩ => ⟨S50000x1, .f32⟩
  | .local _ .vmem, ⟨0, _⟩ => ⟨S5000x4, .f32⟩
  | .local _ .vmem, ⟨1, _⟩ => ⟨S5000x4, .f32⟩
  | .local _ .vmem, ⟨2, _⟩ => ⟨S4x128, .f32⟩
  | .local _ .vmem, ⟨3, _⟩ => ⟨S128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128, .f32⟩
  | .local _ .vmem, ⟨14, _⟩ => ⟨S5000x1, .f32⟩
  | .local _ .vmem, ⟨15, _⟩ => ⟨S5000x1, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128, .f32⟩
  | .local _ .vmem, ⟨26, _⟩ => ⟨S5000x1, .f32⟩
  | .local _ .vmem, ⟨27, _⟩ => ⟨S5000x1, .f32⟩
  | .local _ .vmem, ⟨28, _⟩ => ⟨S5000x1, .f32⟩
  | .local _ .vmem, ⟨29, _⟩ => ⟨S5000x1, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S128, .f32⟩
  | .local _ .vmem, ⟨38, _⟩ => ⟨S5000x1, .f32⟩
  | .local _ .vmem, ⟨39, _⟩ => ⟨S5000x1, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S128, .f32⟩
  | .local _ .vmem, ⟨46, _⟩ => ⟨S128x1, .f32⟩
  | .local _ .vmem, ⟨47, _⟩ => ⟨S1, .f32⟩
  | .local _ .vmem, ⟨48, _⟩ => ⟨S5000x1, .f32⟩
  | .local _ .vmem, ⟨49, _⟩ => ⟨S5000x1, .f32⟩
  | _, _ => ⟨S50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_cst_4 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_5 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15_0 : Ref sig .tc := ⟨.hbm, 37, rfl⟩
abbrev main_v15_1 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_6 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_7 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32_0 : Ref sig .tc := ⟨.hbm, 58, rfl⟩
abbrev main_v32_1 : Ref sig .tc := ⟨.hbm, 59, rfl⟩
abbrev main_v33 : Ref sig .tc := ⟨.hbm, 60, rfl⟩
abbrev main_c_8 : Ref sig .tc := ⟨.hbm, 61, rfl⟩
abbrev main_v34 : Ref sig .tc := ⟨.hbm, 62, rfl⟩
abbrev main_v35 : Ref sig .tc := ⟨.hbm, 63, rfl⟩
abbrev main_c_9 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49_0 : Ref sig .tc := ⟨.hbm, 79, rfl⟩
abbrev main_v49_1 : Ref sig .tc := ⟨.hbm, 80, rfl⟩
abbrev main_v50 : Ref sig .tc := ⟨.hbm, 81, rfl⟩
abbrev main_c_11 : Ref sig .tc := ⟨.hbm, 82, rfl⟩
abbrev main_v51 : Ref sig .tc := ⟨.hbm, 83, rfl⟩
abbrev main_v52 : Ref sig .tc := ⟨.hbm, 84, rfl⟩
abbrev main_c_12 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg4_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg5_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem3_1 : DmaSem sig := 39
abbrev cc3_sem4_0 : DmaSem sig := 40
abbrev cc3_sem4_1 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem3_0 : DmaSem sig := 46
abbrev cc4_sem4_0 : DmaSem sig := 47
abbrev cc4_sem5_0 : DmaSem sig := 48
abbrev cc4_sem5_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  inb_S5000x4_S5000x4_0_0 : ∀ a, (![0, 0] : Fin 2 → Nat) a + S5000x4.size a ≤ S5000x4.size a
  h_S5000x4 : 0 < S5000x4.numel
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  scatter_S50000_S640000x1_S640000_n_0_0_1_wf : ScatterDims.WF S50000 S640000x1 S640000 [] [0] [0] 1
  dot_S5000x4_S4x128_S5000x128_1_0_0_1_n_n_wf : DotDims.WF S5000x4 S4x128 S5000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S50000x4.size a
  hwx0_0 : ∀ i : grid0.Coords, EltTy.bits .f32 = 32 ∨ (Rect.block (s := S50000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .f32 = 32 ∨ (Rect.block (s := S50000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S50000x1.size a
  hwx2_4 : ∀ i : grid2.Coords, EltTy.bits .f32 = 32 ∨ (Rect.block (s := S50000x1) S5000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .f32 = 32 ∨ (Rect.block (s := S50000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x1.size a ≤ S128x1.size a
  hwx4_3 : ∀ i : grid4.Coords, EltTy.bits .f32 = 32 ∨ (Rect.block (s := S128x1) S128x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1.size a ≤ S1.size a
  hwx4_4 : ∀ i : grid4.Coords, EltTy.bits .f32 = 32 ∨ (Rect.block (s := S1) S1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S50000x1.size a
  hwx4_5 : ∀ i : grid4.Coords, EltTy.bits .f32 = 32 ∨ (Rect.block (s := S50000x1) S5000x1.size (cc4_transform_5 i) (hinb4_5 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v32_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v32_1) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v11) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v49_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v49_1) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v14) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v66) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v66) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S128x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg10) S1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v67) S5000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x4 : Shape := ⟨2, ![50000, 4]⟩
abbrev S640000 : Shape := ⟨1, ![640000]⟩
abbrev S4x128 : Shape := ⟨2, ![4, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x1 : Shape := ⟨2, ![128, 1]⟩
abbrev S1 : Shape := ⟨1, ![1]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S50000x128 : Shape := ⟨2, ![50000, 128]⟩
abbrev S1x128 : Shape := ⟨2, ![1, 128]⟩
abbrev S640000x128 : Shape := ⟨2, ![640000, 128]⟩
abbrev S1x128x128 : Shape := ⟨3, ![1, 128, 128]⟩
abbrev S1x1 : Shape := ⟨2, ![1, 1]⟩

abbrev nBuf : Space → Nat
  | .hbm => 136
  | .vmem => 0
  | .smem => 0
  | _ => 0

abbrev hbmTy0_0 (i : Nat) : BufTy := match i % 128 with
  | 0 => ⟨S50000x4, .f32⟩
  | 1 => ⟨S640000, .i32⟩
  | 2 => ⟨S640000, .i32⟩
  | 3 => ⟨S4x128, .f32⟩
  | 4 => ⟨S128, .f32⟩
  | 5 => ⟨S3x128x128, .f32⟩
  | 6 => ⟨S3x128, .f32⟩
  | 7 => ⟨S128x128, .f32⟩
  | 8 => ⟨S128, .f32⟩
  | 9 => ⟨S128x1, .f32⟩
  | 10 => ⟨S1, .f32⟩
  | 11 => ⟨S_, .f32⟩
  | 12 => ⟨S640000, .f32⟩
  | 13 => ⟨S_, .f32⟩
  | 14 => ⟨S50000, .f32⟩
  | 15 => ⟨S640000x1, .i32⟩
  | 16 => ⟨S50000, .f32⟩
  | 17 => ⟨S_, .f32⟩
  | 18 => ⟨S_, .f32⟩
  | 19 => ⟨S50000, .f32⟩
  | 20 => ⟨S50000, .f32⟩
  | 21 => ⟨S_, .f32⟩
  | 22 => ⟨S50000, .f32⟩
  | 23 => ⟨S640000x1, .i32⟩
  | 24 => ⟨S50000, .f32⟩
  | 25 => ⟨S_, .f32⟩
  | 26 => ⟨S_, .f32⟩
  | 27 => ⟨S50000, .f32⟩
  | 28 => ⟨S50000, .f32⟩
  | 29 => ⟨S_, .f32⟩
  | 30 => ⟨S50000, .f32⟩
  | 31 => ⟨S50000, .f32⟩
  | 32 => ⟨S50000x1, .f32⟩
  | 33 => ⟨S_, .f32⟩
  | 34 => ⟨S50000, .f32⟩
  | 35 => ⟨S50000, .f32⟩
  | 36 => ⟨S50000x1, .f32⟩
  | 37 => ⟨S50000x128, .f32⟩
  | 38 => ⟨S1x128, .f32⟩
  | 39 => ⟨S50000x128, .f32⟩
  | 40 => ⟨S50000x128, .f32⟩
  | 41 => ⟨S50000x128, .f32⟩
  | 42 => ⟨S50000x128, .f32⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S640000x128, .f32⟩
  | 52 => ⟨S_, .f32⟩
  | 53 => ⟨S50000x128, .f32⟩
  | 54 => ⟨S640000x1, .i32⟩
  | 55 => ⟨S50000x128, .f32⟩
  | 56 => ⟨S50000x128, .f32⟩
  | 57 => ⟨S50000x128, .f32⟩
  | 58 => ⟨S1x128x128, .f32⟩
  | 59 => ⟨S128x128, .f32⟩
  | 60 => ⟨S50000x128, .f32⟩
  | 61 => ⟨S1x128, .f32⟩
  | 62 => ⟨S128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x128, .f32⟩
  | 70 => ⟨S50000x128, .f32⟩
  | 71 => ⟨S_, .i32⟩
  | 72 => ⟨S640000, .i32⟩
  | 73 => ⟨S640000, .i1⟩
  | 74 => ⟨S_, .i32⟩
  | 75 => ⟨S640000, .i32⟩
  | 76 => ⟨S640000, .i32⟩
  | 77 => ⟨S640000, .i32⟩
  | 78 => ⟨S640000x1, .i32⟩
  | 79 => ⟨S640000x128, .f32⟩
  | 80 => ⟨S_, .f32⟩
  | 81 => ⟨S50000x128, .f32⟩
  | 82 => ⟨S640000x1, .i32⟩
  | 83 => ⟨S50000x128, .f32⟩
  | 84 => ⟨S50000x128, .f32⟩
  | 85 => ⟨S50000x128, .f32⟩
  | 86 => ⟨S1x128x128, .f32⟩
  | 87 => ⟨S128x128, .f32⟩
  | 88 => ⟨S50000x128, .f32⟩
  | 89 => ⟨S1x128, .f32⟩
  | 90 => ⟨S128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S50000x128, .f32⟩
  | 99 => ⟨S_, .i32⟩
  | 100 => ⟨S640000, .i32⟩
  | 101 => ⟨S640000, .i1⟩
  | 102 => ⟨S_, .i32⟩
  | 103 => ⟨S640000, .i32⟩
  | 104 => ⟨S640000, .i32⟩
  | 105 => ⟨S640000, .i32⟩
  | 106 => ⟨S640000x1, .i32⟩
  | 107 => ⟨S640000x128, .f32⟩
  | 108 => ⟨S_, .f32⟩
  | 109 => ⟨S50000x128, .f32⟩
  | 110 => ⟨S640000x1, .i32⟩
  | 111 => ⟨S50000x128, .f32⟩
  | 112 => ⟨S50000x128, .f32⟩
  | 113 => ⟨S50000x128, .f32⟩
  | 114 => ⟨S1x128x128, .f32⟩
  | 115 => ⟨S128x128, .f32⟩
  | 116 => ⟨S50000x128, .f32⟩
  | 117 => ⟨S1x128, .f32⟩
  | 118 => ⟨S128, .f32⟩
  | 119 => ⟨S1x128, .f32⟩
  | 120 => ⟨S50000x128, .f32⟩
  | 121 => ⟨S50000x128, .f32⟩
  | 122 => ⟨S_, .f32⟩
  | 123 => ⟨S50000x128, .f32⟩
  | 124 => ⟨S50000x128, .f32⟩
  | 125 => ⟨S50000x128, .f32⟩
  | 126 => ⟨S1x128, .f32⟩
  | 127 => ⟨S50000x128, .f32⟩
  | _ => ⟨S50000x4, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S50000x1, .f32⟩
  | 5 => ⟨S1x1, .f32⟩
  | 6 => ⟨S50000x1, .f32⟩
  | 7 => ⟨S50000x1, .f32⟩
  | _ => ⟨S50000x4, .f32⟩

abbrev hbmTy (i : Nat) : BufTy := match i / 128 with
  | 0 => hbmTy0_0 i
  | 1 => hbmTy0_1 i
  | _ => ⟨S50000x4, .f32⟩

abbrev bufTy : (tb : Table) → Fin (tcTables nBuf tb) → BufTy
  | .hbm, ⟨i, _⟩ => hbmTy i
  | _, _ => ⟨S50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_cst_4 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_5 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_7 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call2_cst : Ref sig .tc := ⟨.hbm, 66, rfl⟩
abbrev main_call2_v0 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_8 : Ref sig .tc := ⟨.hbm, 71, rfl⟩
abbrev main_v44 : Ref sig .tc := ⟨.hbm, 72, rfl⟩
abbrev main_v45 : Ref sig .tc := ⟨.hbm, 73, rfl⟩
abbrev main_c_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call3_cst : Ref sig .tc := ⟨.hbm, 94, rfl⟩
abbrev main_call3_v0 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_11 : Ref sig .tc := ⟨.hbm, 99, rfl⟩
abbrev main_v67 : Ref sig .tc := ⟨.hbm, 100, rfl⟩
abbrev main_v68 : Ref sig .tc := ⟨.hbm, 101, rfl⟩
abbrev main_c_12 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_13 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call4_cst : Ref sig .tc := ⟨.hbm, 122, rfl⟩
abbrev main_call4_v0 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_call5_cst : Ref sig .tc := ⟨.hbm, 129, rfl⟩
abbrev main_call5_v0 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S640000x1_S640000_n_0_0_1_wf : ScatterDims.WF S50000 S640000x1 S640000 [] [0] [0] 1
  dot_S50000x4_S4x128_S50000x128_1_0_0_1_n_n_wf : DotDims.WF S50000x4 S4x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x4_S4x128_S50000x128_1_0_0_1_n_n : DotDims S50000x4 S4x128 S50000x128 where
  lhsContracting := [1]
  rhsContracting := [0]
  lhsNonContracting := [0]
  rhsNonContracting := [1]
  lhsBatch := []
  rhsBatch := []
  wf := dot_S50000x4_S4x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Network.lean ====
/-
  The function both programs compute, as one composition of whole-array maps on the extended reals.

  A graph on 50000 nodes is given by 640000 edges (src e → dst e). Every node carries 128 channels.
  * `degNorm e`   : the column n ↦ (max 1 #{edges whose endpoint word is n}) ^ (-1/2): the count is the accumulating
                     scatter of ones, the clamp a maximum with one, the power the host's.
  * `aggregate`   : (A x) n = Σ_{e : dst e = n} x (src e) — a row gather at the source words (a negative word wrapped
                     by 50000, as array indexing does) followed by the accumulating scatter at the destination words.
  * `embed`       : x ↦ x · W + b on 4 input features.
  * `conv`        : a ↦ max (((a scaled row-wise by the in-degree column) · W) + b) 0.
  * `readout`     : h ↦ (max (h · W₁ + b₁) 0) · W₂ + b₂, one output channel.
  `network` chains them: the embedded features scaled by the out-degree column are aggregated, convolved and scaled
  again, three times with the three slices of the stacked weights, and the last convolution feeds the readout.
  All operations are spelt as the host program spells them, so that the host program's own term is this
  composition on the nose.
-/
import proofs.«100711_j8830452760706_2_alg».proof.ReferenceIdeal
import proofs.«100711_j8830452760706_2_alg».proof.Proof.Gen.ReferenceIdeal
import Idealize.ShloMosaic.PureOps.Ideal

noncomputable section

namespace Cert.GraphNet

open Cert.ReferenceIdeal Cert.ReferenceIdeal.Gen Idealize.ShloMosaic Idealize.ShloMosaic.TcCoe

/-- 128 channels on every node. -/
abbrev Feat := FVec Ideal S50000x128 .f32
/-- One number per node, kept as a column. -/
abbrev Col := FVec Ideal S50000x1 .f32
/-- One endpoint word per edge. -/
abbrev Ends := IVec S640000 32
abbrev Mat := FVec Ideal S128x128 .f32
abbrev Row := FVec Ideal S128 .f32

/-- The all-zero feature array the sums start from. -/
def zeroFeat : Feat := broadcastInDim S50000x128 ![] bcast_S_S50000x128 (constant (F := Ideal) S_ .f32 0x00000000#32)

/-- The endpoint words as a 640000 × 1 array of scatter / gather positions. -/
def asPos (e : Ends) : IVec S640000x1 32 :=
  broadcastInDim S640000x1 ![0] bcast_S640000_S640000x1_0 e

/-- n ↦ (max 1 (number of edges with endpoint word n)) ^ (-1/2), as a column. -/
def degNorm (e : Ends) : Col :=
  broadcastInDim S50000x1 ![0] bcast_S50000_S50000x1_0
    (Host.powf
      (maximumf
        (broadcastInDim S50000 ![] bcast_S_S50000 (constant (F := Ideal) S_ .f32 0x3F800000#32))
        (Host.scatterAdd scatter_S50000_S640000x1_S640000_n_0_0_1
          (broadcastInDim S50000 ![] bcast_S_S50000 (constant (F := Ideal) S_ .f32 0x00000000#32))
          (asPos e)
          (broadcastInDim S640000 ![] bcast_S_S640000 (constant (F := Ideal) S_ .f32 0x3F800000#32))))
      (broadcastInDim S50000 ![] bcast_S_S50000 (constant (F := Ideal) S_ .f32 0xBF000000#32)))

/-- A negative endpoint word counts from the end: word + 50000. -/
def wrapped (e : Ends) : Ends :=
  select (cmpi .slt e (broadcastInDim S640000 ![] bcast_S_S640000 (constantI S_ 32 0#32)))
    (addi e (broadcastInDim S640000 ![] bcast_S_S640000 (constantI S_ 32 50000#32))) e

/-- (A x) n = Σ over the edges into n of x at the edge's source. -/
def aggregate (src dst : Ends) (x : Feat) : Feat :=
  Host.scatterAdd scatter_S50000x128_S640000x1_S640000x128_1_0_0_1 zeroFeat (asPos dst)
    (Host.gather gather_S50000x128_S640000x1_S640000x128_1_0_n_n_0_1_1128 x (asPos (wrapped src)))

/-- Row n of `x` times the number `k n`. -/
def scaleRows (x : Feat) (k : Col) : Feat :=
  mulf x (broadcastInDim S50000x128 ![0, 1] bcast_S50000x1_S50000x128_0_1 k)

/-- The row `b` repeated on every node. -/
def biasRows (b : Row) : Feat :=
  broadcastInDim S50000x128 ![0, 1] bcast_S1x128_S50000x128_0_1 (broadcastInDim S1x128 ![1] bcast_S128_S1x128_1 b)

/-- max x 0, entry by entry. -/
def relu (x : Feat) : Feat := maximumf x zeroFeat

/-- x · W + b from 4 input features. -/
def embed (x : FVec Ideal S50000x4 .f32) (W : FVec Ideal S4x128 .f32) (b : Row) : Feat :=
  addf (Host.dotGeneral dot_S50000x4_S4x128_S50000x128_1_0_0_1_n_n none x W) (biasRows b)

/-- x · W + b on 128 channels. -/
def dense (x : Feat) (W : Mat) (b : Row) : Feat :=
  addf (Host.dotGeneral dot_S50000x128_S128x128_S50000x128_1_0_0_1_n_n none x W) (biasRows b)

/-- One graph convolution after aggregation: max (((a scaled by the column k) · W) + b) 0. -/
def conv (a : Feat) (W : Mat) (b : Row) (k : Col) : Feat := relu (dense (scaleRows a k) W b)

/-- The three 128 × 128 slices of the stacked weights and the three rows of the stacked biases. -/
def weight0 (Wg : FVec Ideal S3x128x128 .f32) : Mat :=
  shapeCast _ (extractStridedSlice S1x128x128 ![0, 0, 0] Wg slices_S3x128x128_S1x128x128_0_0_0) shapeCasts_S1x128x128_S128x128
def weight1 (Wg : FVec Ideal S3x128x128 .f32) : Mat :=
  shapeCast _ (extractStridedSlice S1x128x128 ![1, 0, 0] Wg slices_S3x128x128_S1x128x128_1_0_0) shapeCasts_S1x128x128_S128x128
def weight2 (Wg : FVec Ideal S3x128x128 .f32) : Mat :=
  shapeCast _ (extractStridedSlice S1x128x128 ![2, 0, 0] Wg slices_S3x128x128_S1x128x128_2_0_0) shapeCasts_S1x128x128_S128x128
def bias0 (bg : FVec Ideal S3x128 .f32) : Row :=
  shapeCast _ (extractStridedSlice S1x128 ![0, 0] bg slices_S3x128_S1x128_0_0) shapeCasts_S1x128_S128
def bias1 (bg : FVec Ideal S3x128 .f32) : Row :=
  shapeCast _ (extractStridedSlice S1x128 ![1, 0] bg slices_S3x128_S1x128_1_0) shapeCasts_S1x128_S128
def bias2 (bg : FVec Ideal S3x128 .f32) : Row :=
  shapeCast _ (extractStridedSlice S1x128 ![2, 0] bg slices_S3x128_S1x128_2_0) shapeCasts_S1x128_S128

/-- (max (h · W₁ + b₁) 0) · W₂ + b₂: one output channel per node. -/
def readout (h : Feat) (W1 : Mat) (b1 : Row) (W2 : FVec Ideal S128x1 .f32)
    (b2 : FVec Ideal S1 .f32) : Col :=
  addf (Host.dotGeneral dot_S50000x128_S128x1_S50000x1_1_0_0_1_n_n none (relu (dense h W1 b1)) W2)
    (broadcastInDim S50000x1 ![0, 1] bcast_S1x1_S50000x1_0_1 (broadcastInDim S1x1 ![1] bcast_S1_S1x1_1 b2))

/-- The whole map from the eleven arguments to the one result. -/
def network (x : FVec Ideal S50000x4 .f32) (src dst : Ends)
    (We : FVec Ideal S4x128 .f32) (be : Row)
    (Wg : FVec Ideal S3x128x128 .f32) (bg : FVec Ideal S3x128 .f32)
    (W1 : Mat) (b1 : Row) (W2 : FVec Ideal S128x1 .f32)
    (b2 : FVec Ideal S1 .f32) : Col :=
  readout
    (conv (aggregate src dst (scaleRows
      (conv (aggregate src dst (scaleRows
        (conv (aggregate src dst (scaleRows (embed x We be) (degNorm src))) (weight0 Wg) (bias0 bg) (degNorm dst))
        (degNorm src))) (weight1 Wg) (bias1 bg) (degNorm dst))
      (degNorm src))) (weight2 Wg) (bias2 bg) (degNorm dst))
    W1 b1 W2 b2

end Cert.GraphNet

end
-- ==== Proof.ReferenceNet.lean ====
/-
  The host program's result is the network map of its arguments: its operations, composed in program order, are
  literally the composition `Cert.GraphNet.network` (the outlined clamp and the outlined positive part are the
  maxima the network map is spelt with).
-/
import proofs.«100711_j8830452760706_2_alg».proof.Proof.Network
import proofs.«100711_j8830452760706_2_alg».proof.Proof.Gen.ReferenceIdeal.Run

noncomputable section

namespace Cert.GraphNet

open Cert.ReferenceIdeal Cert.ReferenceIdeal.Gen Idealize.ShloMosaic Idealize.ShloMosaic.TcCoe Idealize.SL.Sem

set_option maxRecDepth 8192 in
/-- The reference's composed term, at the extended reals, is `network` of the launch contents of the arguments. -/
theorem reference_eq (m : (ℓ : Loc nD τ sig) → Buf (Elt Ideal) ℓ) (c : Dev nD) :
    Cert.ReferenceIdeal.Value.res_main_v96 (F := Ideal) m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.ReferenceIdeal.Value.res_main_v96
  rfl

end Cert.GraphNet

end
-- ==== Proof.FoldDegrees.lean ====
/-
  The contents of the buffers when the first region is entered.

  The host stretches before the first region compute the two degree columns: for each of the two endpoint arrays the
  count of the edges at every node (an accumulating scatter of ones into zeros), clamped below by one, raised to the
  power -1/2 and kept as a column. No argument array is written on the way.
-/
import proofs.«100711_j8830452760706_2_alg».proof.Proof.Network
import proofs.«100711_j8830452760706_2_alg».proof.Proof.Gen.KernelIdeal.Frame
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The kernel program's spelling of a degree column is the network map's. -/
theorem degNorm_eq (e : IVec S640000 32) :
    broadcastInDim S50000x1 ![0] bcast_S50000_S50000x1_0
      (Host.powf
        (maximumf (broadcastInDim S50000 ![] bcast_S_S50000 (constant (F := Ideal) S_ .f32 0x3F800000#32))
          (Host.scatterAdd scatter_S50000_S640000x1_S640000_n_0_0_1
            (broadcastInDim S50000 ![] bcast_S_S50000 (constant (F := Ideal) S_ .f32 0x00000000#32))
            (broadcastInDim S640000x1 ![0] bcast_S640000_S640000x1_0 e)
            (broadcastInDim S640000 ![] bcast_S_S640000 (constant (F := Ideal) S_ .f32 0x3F800000#32))))
        (broadcastInDim S50000 ![] bcast_S_S50000 (constant (F := Ideal) S_ .f32 0xBF000000#32)))
    = Cert.GraphNet.degNorm e := rfl

/-- At the first region's entry the out-degree column is the network map's of the source words. -/
theorem W5_v11 : W5 m ρ c (Proc.devRef .tc main_v11) = Cert.GraphNet.degNorm (m ((c : Thread nD τ).loc main_arg1)) := by
  refine Eq.trans ?_ (degNorm_eq _)
  dsimp only [W5, W4, W3, W2, W1, hostOps0, hostOps0_1, hostOps0_2, hostOps0_3, hostOps0_4]
  after_results
  rfl

/-- At the first region's entry the in-degree column is the network map's of the destination words. -/
theorem W5_v14 : W5 m ρ c (Proc.devRef .tc main_v14) = Cert.GraphNet.degNorm (m ((c : Thread nD τ).loc main_arg2)) := by
  refine Eq.trans ?_ (degNorm_eq _)
  dsimp only [W5, W4, W3, W2, W1, hostOps0, hostOps0_1, hostOps0_2, hostOps0_3, hostOps0_4]
  after_results
  rfl

/-! No host operation before the first region writes an argument array. -/
theorem W5_arg0 : W5 m ρ c (Proc.devRef .tc main_arg0) = m ((c : Thread nD τ).loc main_arg0) := by
  dsimp only [W5, W4, W3, W2, W1, hostOps0, hostOps0_1, hostOps0_2, hostOps0_3, hostOps0_4]
  after_results
theorem W5_arg1 : W5 m ρ c (Proc.devRef .tc main_arg1) = m ((c : Thread nD τ).loc main_arg1) := by
  dsimp only [W5, W4, W3, W2, W1, hostOps0, hostOps0_1, hostOps0_2, hostOps0_3, hostOps0_4]
  after_results
theorem W5_arg2 : W5 m ρ c (Proc.devRef .tc main_arg2) = m ((c : Thread nD τ).loc main_arg2) := by
  dsimp only [W5, W4, W3, W2, W1, hostOps0, hostOps0_1, hostOps0_2, hostOps0_3, hostOps0_4]
  after_results
theorem W5_arg3 : W5 m ρ c (Proc.devRef .tc main_arg3) = m ((c : Thread nD τ).loc main_arg3) := by
  dsimp only [W5, W4, W3, W2, W1, hostOps0, hostOps0_1, hostOps0_2, hostOps0_3, hostOps0_4]
  after_results
theorem W5_arg4 : W5 m ρ c (Proc.devRef .tc main_arg4) = m ((c : Thread nD τ).loc main_arg4) := by
  dsimp only [W5, W4, W3, W2, W1, hostOps0, hostOps0_1, hostOps0_2, hostOps0_3, hostOps0_4]
  after_results
theorem W5_arg5 : W5 m ρ c (Proc.devRef .tc main_arg5) = m ((c : Thread nD τ).loc main_arg5) := by
  dsimp only [W5, W4, W3, W2, W1, hostOps0, hostOps0_1, hostOps0_2, hostOps0_3, hostOps0_4]
  after_results
theorem W5_arg6 : W5 m ρ c (Proc.devRef .tc main_arg6) = m ((c : Thread nD τ).loc main_arg6) := by
  dsimp only [W5, W4, W3, W2, W1, hostOps0, hostOps0_1, hostOps0_2, hostOps0_3, hostOps0_4]
  after_results
theorem W5_arg7 : W5 m ρ c (Proc.devRef .tc main_arg7) = m ((c : Thread nD τ).loc main_arg7) := by
  dsimp only [W5, W4, W3, W2, W1, hostOps0, hostOps0_1, hostOps0_2, hostOps0_3, hostOps0_4]
  after_results
theorem W5_arg8 : W5 m ρ c (Proc.devRef .tc main_arg8) = m ((c : Thread nD τ).loc main_arg8) := by
  dsimp only [W5, W4, W3, W2, W1, hostOps0, hostOps0_1, hostOps0_2, hostOps0_3, hostOps0_4]
  after_results
theorem W5_arg9 : W5 m ρ c (Proc.devRef .tc main_arg9) = m ((c : Thread nD τ).loc main_arg9) := by
  dsimp only [W5, W4, W3, W2, W1, hostOps0, hostOps0_1, hostOps0_2, hostOps0_3, hostOps0_4]
  after_results
theorem W5_arg10 : W5 m ρ c (Proc.devRef .tc main_arg10) = m ((c : Thread nD τ).loc main_arg10) := by
  dsimp only [W5, W4, W3, W2, W1, hostOps0, hostOps0_1, hostOps0_2, hostOps0_3, hostOps0_4]
  after_results

end Cert.KernelIdeal.Fold

end
-- ==== Proof.FoldStretch1.lean ====
/-
  Host stretch 1 of the kernel program, from any contents `Wp` at its start.

  It aggregates the scaled features the region before it wrote: the rows at the (wrapped) source words are
  gathered and summed into the rows at the destination words; the two changes of float format around the gather are
  the identity on the extended reals. It cuts layer 0's weight matrix and bias row out of the stacked
  arguments. It writes no other buffer that is read later.
-/
import proofs.«100711_j8830452760706_2_alg».proof.Proof.Network
import proofs.«100711_j8830452760706_2_alg».proof.Proof.Gen.KernelIdeal.Launch
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

/-- Narrowing to bf16 and widening back are the identity on the extended reals. -/
theorem narrow_id1 {s : Shape} (x : FVec Ideal s .f32) : (truncf .bf16 x bitsLt_bf16_f32 : FVec Ideal s .bf16) = x := rfl
theorem widen_id1 {s : Shape} (g : FVec Ideal s .bf16) : (extf .f32 g bitsLt_bf16_f32 : FVec Ideal s .f32) = g := rfl

/-- The kernel program's spelling of one aggregation is the network map's. -/
theorem aggregate_eq1 (src dst : IVec S640000 32) (x : FVec Ideal S50000x128 .f32) :
    Host.scatterAdd scatter_S50000x128_S640000x1_S640000x128_1_0_0_1
      (broadcastInDim S50000x128 ![] bcast_S_S50000x128 (constant (F := Ideal) S_ .f32 0x00000000#32))
      (broadcastInDim S640000x1 ![0] bcast_S640000_S640000x1_0 dst)
      (extf .f32 (Host.gather gather_S50000x128_S640000x1_S640000x128_1_0_n_n_0_1_1128 (truncf .bf16 x bitsLt_bf16_f32)
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 50000#32))) src))) bitsLt_bf16_f32)
    = Cert.GraphNet.aggregate src dst x := by
  rw [narrow_id1, widen_id1]
  rfl

variable (Wp : Valuation τ sig (Elt Ideal))

set_option maxHeartbeats 4000000 in
/-- The aggregated features after the stretch. -/
theorem ops1_agg :
    StableHlo.after hostOps1 Wp (Proc.devRef .tc main_v27)
      = Cert.GraphNet.aggregate (Wp (Proc.devRef .tc main_arg1)) (Wp (Proc.devRef .tc main_arg2)) (Wp (Proc.devRef .tc main_v15_1)) := by
  refine Eq.trans ?_ (aggregate_eq1 (Wp (Proc.devRef .tc main_arg1)) (Wp (Proc.devRef .tc main_arg2)) (Wp (Proc.devRef .tc main_v15_1)))
  delta hostOps1
  after_results
  first | done | rfl

set_option maxHeartbeats 4000000 in
/-- The layer's weight matrix after the stretch. -/
theorem ops1_weight :
    StableHlo.after hostOps1 Wp (Proc.devRef .tc main_v29) = Cert.GraphNet.weight0 (Wp (Proc.devRef .tc main_arg5)) := by
  refine Eq.trans ?_ (show shapeCast _ (extractStridedSlice S1x128x128 ![0, 0, 0] (Wp (Proc.devRef .tc main_arg5)) slices_S3x128x128_S1x128x128_0_0_0) shapeCasts_S1x128x128_S128x128
      = Cert.GraphNet.weight0 (Wp (Proc.devRef .tc main_arg5)) from rfl)
  delta hostOps1
  after_results
  first | done | rfl

set_option maxHeartbeats 4000000 in
/-- The layer's bias row after the stretch. -/
theorem ops1_bias :
    StableHlo.after hostOps1 Wp (Proc.devRef .tc main_v31) = Cert.GraphNet.bias0 (Wp (Proc.devRef .tc main_arg6)) := by
  refine Eq.trans ?_ (show shapeCast _ (extractStridedSlice S1x128 ![0, 0] (Wp (Proc.devRef .tc main_arg6)) slices_S3x128_S1x128_0_0) shapeCasts_S1x128_S128
      = Cert.GraphNet.bias0 (Wp (Proc.devRef .tc main_arg6)) from rfl)
  delta hostOps1
  after_results
  first | done | rfl

/-! The buffers the stretch leaves alone. -/
theorem ops1_keep_main_v14 : StableHlo.after hostOps1 Wp (Proc.devRef .tc main_v14) = Wp (Proc.devRef .tc main_v14) :=
  StableHlo.after_of_forall_not_mem (b := Proc.devRef .tc main_v14) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops1_keep_main_v11 : StableHlo.after hostOps1 Wp (Proc.devRef .tc main_v11) = Wp (Proc.devRef .tc main_v11) :=
  StableHlo.after_of_forall_not_mem (b := Proc.devRef .tc main_v11) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops1_keep_main_arg1 : StableHlo.after hostOps1 Wp (Proc.devRef .tc main_arg1) = Wp (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops1_keep_main_arg2 : StableHlo.after hostOps1 Wp (Proc.devRef .tc main_arg2) = Wp (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops1_keep_main_arg5 : StableHlo.after hostOps1 Wp (Proc.devRef .tc main_arg5) = Wp (Proc.devRef .tc main_arg5) :=
  StableHlo.after_of_forall_not_mem (b := Proc.devRef .tc main_arg5) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops1_keep_main_arg6 : StableHlo.after hostOps1 Wp (Proc.devRef .tc main_arg6) = Wp (Proc.devRef .tc main_arg6) :=
  StableHlo.after_of_forall_not_mem (b := Proc.devRef .tc main_arg6) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops1_keep_main_arg7 : StableHlo.after hostOps1 Wp (Proc.devRef .tc main_arg7) = Wp (Proc.devRef .tc main_arg7) :=
  StableHlo.after_of_forall_not_mem (b := Proc.devRef .tc main_arg7) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops1_keep_main_arg8 : StableHlo.after hostOps1 Wp (Proc.devRef .tc main_arg8) = Wp (Proc.devRef .tc main_arg8) :=
  StableHlo.after_of_forall_not_mem (b := Proc.devRef .tc main_arg8) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops1_keep_main_arg9 : StableHlo.after hostOps1 Wp (Proc.devRef .tc main_arg9) = Wp (Proc.devRef .tc main_arg9) :=
  StableHlo.after_of_forall_not_mem (b := Proc.devRef .tc main_arg9) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops1_keep_main_arg10 : StableHlo.after hostOps1 Wp (Proc.devRef .tc main_arg10) = Wp (Proc.devRef .tc main_arg10) :=
  StableHlo.after_of_forall_not_mem (b := Proc.devRef .tc main_arg10) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.KernelIdeal.Fold

end
-- ==== Proof.FoldStretch2.lean ====
/-
  Host stretch 2 of the kernel program, from any contents `Wp` at its start.

  It aggregates the scaled features the region before it wrote: the rows at the (wrapped) source words are
  gathered and summed into the rows at the destination words; the two changes of float format around the gather are
  the identity on the extended reals. It cuts layer 1's weight matrix and bias row out of the stacked
  arguments. It writes no other buffer that is read later.
-/
import proofs.«100711_j8830452760706_2_alg».proof.Proof.Network
import proofs.«100711_j8830452760706_2_alg».proof.Proof.Gen.KernelIdeal.Launch
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

/-- Narrowing to bf16 and widening back are the identity on the extended reals. -/
theorem narrow_id2 {s : Shape} (x : FVec Ideal s .f32) : (truncf .bf16 x bitsLt_bf16_f32 : FVec Ideal s .bf16) = x := rfl
theorem widen_id2 {s : Shape} (g : FVec Ideal s .bf16) : (extf .f32 g bitsLt_bf16_f32 : FVec Ideal s .f32) = g := rfl

/-- The kernel program's spelling of one aggregation is the network map's. -/
theorem aggregate_eq2 (src dst : IVec S640000 32) (x : FVec Ideal S50000x128 .f32) :
    Host.scatterAdd scatter_S50000x128_S640000x1_S640000x128_1_0_0_1
      (broadcastInDim S50000x128 ![] bcast_S_S50000x128 (constant (F := Ideal) S_ .f32 0x00000000#32))
      (broadcastInDim S640000x1 ![0] bcast_S640000_S640000x1_0 dst)
      (extf .f32 (Host.gather gather_S50000x128_S640000x1_S640000x128_1_0_n_n_0_1_1128 (truncf .bf16 x bitsLt_bf16_f32)
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 50000#32))) src))) bitsLt_bf16_f32)
    = Cert.GraphNet.aggregate src dst x := by
  rw [narrow_id2, widen_id2]
  rfl

variable (Wp : Valuation τ sig (Elt Ideal))

set_option maxHeartbeats 4000000 in
/-- The aggregated features after the stretch. -/
theorem ops2_agg :
    StableHlo.after hostOps2 Wp (Proc.devRef .tc main_v44)
      = Cert.GraphNet.aggregate (Wp (Proc.devRef .tc main_arg1)) (Wp (Proc.devRef .tc main_arg2)) (Wp (Proc.devRef .tc main_v32_1)) := by
  refine Eq.trans ?_ (aggregate_eq2 (Wp (Proc.devRef .tc main_arg1)) (Wp (Proc.devRef .tc main_arg2)) (Wp (Proc.devRef .tc main_v32_1)))
  delta hostOps2
  after_results
  first | done | rfl

set_option maxHeartbeats 4000000 in
/-- The layer's weight matrix after the stretch. -/
theorem ops2_weight :
    StableHlo.after hostOps2 Wp (Proc.devRef .tc main_v46) = Cert.GraphNet.weight1 (Wp (Proc.devRef .tc main_arg5)) := by
  refine Eq.trans ?_ (show shapeCast _ (extractStridedSlice S1x128x128 ![1, 0, 0] (Wp (Proc.devRef .tc main_arg5)) slices_S3x128x128_S1x128x128_1_0_0) shapeCasts_S1x128x128_S128x128
      = Cert.GraphNet.weight1 (Wp (Proc.devRef .tc main_arg5)) from rfl)
  delta hostOps2
  after_results
  first | done | rfl

set_option maxHeartbeats 4000000 in
/-- The layer's bias row after the stretch. -/
theorem ops2_bias :
    StableHlo.after hostOps2 Wp (Proc.devRef .tc main_v48) = Cert.GraphNet.bias1 (Wp (Proc.devRef .tc main_arg6)) := by
  refine Eq.trans ?_ (show shapeCast _ (extractStridedSlice S1x128 ![1, 0] (Wp (Proc.devRef .tc main_arg6)) slices_S3x128_S1x128_1_0) shapeCasts_S1x128_S128
      = Cert.GraphNet.bias1 (Wp (Proc.devRef .tc main_arg6)) from rfl)
  delta hostOps2
  after_results
  first | done | rfl

/-! The buffers the stretch leaves alone. -/
theorem ops2_keep_main_v14 : StableHlo.after hostOps2 Wp (Proc.devRef .tc main_v14) = Wp (Proc.devRef .tc main_v14) :=
  StableHlo.after_of_forall_not_mem (b := Proc.devRef .tc main_v14) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops2_keep_main_v11 : StableHlo.after hostOps2 Wp (Proc.devRef .tc main_v11) = Wp (Proc.devRef .tc main_v11) :=
  StableHlo.after_of_forall_not_mem (b := Proc.devRef .tc main_v11) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops2_keep_main_arg1 : StableHlo.after hostOps2 Wp (Proc.devRef .tc main_arg1) = Wp (Proc.devRef .tc main_arg1) :=
  StableHlo.after_of_forall_not_mem (b := Proc.devRef .tc main_arg1) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops2_keep_main_arg2 : StableHlo.after hostOps2 Wp (Proc.devRef .tc main_arg2) = Wp (Proc.devRef .tc main_arg2) :=
  StableHlo.after_of_forall_not_mem (b := Proc.devRef .tc main_arg2) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops2_keep_main_arg5 : StableHlo.after hostOps2 Wp (Proc.devRef .tc main_arg5) = Wp (Proc.devRef .tc main_arg5) :=
  StableHlo.after_of_forall_not_mem (b := Proc.devRef .tc main_arg5) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops2_keep_main_arg6 : StableHlo.after hostOps2 Wp (Proc.devRef .tc main_arg6) = Wp (Proc.devRef .tc main_arg6) :=
  StableHlo.after_of_forall_not_mem (b := Proc.devRef .tc main_arg6) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops2_keep_main_arg7 : StableHlo.after hostOps2 Wp (Proc.devRef .tc main_arg7) = Wp (Proc.devRef .tc main_arg7) :=
  StableHlo.after_of_forall_not_mem (b := Proc.devRef .tc main_arg7) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops2_keep_main_arg8 : StableHlo.after hostOps2 Wp (Proc.devRef .tc main_arg8) = Wp (Proc.devRef .tc main_arg8) :=
  StableHlo.after_of_forall_not_mem (b := Proc.devRef .tc main_arg8) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops2_keep_main_arg9 : StableHlo.after hostOps2 Wp (Proc.devRef .tc main_arg9) = Wp (Proc.devRef .tc main_arg9) :=
  StableHlo.after_of_forall_not_mem (b := Proc.devRef .tc main_arg9) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops2_keep_main_arg10 : StableHlo.after hostOps2 Wp (Proc.devRef .tc main_arg10) = Wp (Proc.devRef .tc main_arg10) :=
  StableHlo.after_of_forall_not_mem (b := Proc.devRef .tc main_arg10) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.KernelIdeal.Fold

end
-- ==== Proof.FoldStretch3.lean ====
/-
  Host stretch 3 of the kernel program, from any contents `Wp` at its start.

  It aggregates the scaled features the region before it wrote: the rows at the (wrapped) source words are
  gathered and summed into the rows at the destination words; the two changes of float format around the gather are
  the identity on the extended reals. It cuts layer 2's weight matrix and bias row out of the stacked
  arguments. It writes no other buffer that is read later.
-/
import proofs.«100711_j8830452760706_2_alg».proof.Proof.Network
import proofs.«100711_j8830452760706_2_alg».proof.Proof.Gen.KernelIdeal.Launch
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

/-- Narrowing to bf16 and widening back are the identity on the extended reals. -/
theorem narrow_id3 {s : Shape} (x : FVec Ideal s .f32) : (truncf .bf16 x bitsLt_bf16_f32 : FVec Ideal s .bf16) = x := rfl
theorem widen_id3 {s : Shape} (g : FVec Ideal s .bf16) : (extf .f32 g bitsLt_bf16_f32 : FVec Ideal s .f32) = g := rfl

/-- The kernel program's spelling of one aggregation is the network map's. -/
theorem aggregate_eq3 (src dst : IVec S640000 32) (x : FVec Ideal S50000x128 .f32) :
    Host.scatterAdd scatter_S50000x128_S640000x1_S640000x128_1_0_0_1
      (broadcastInDim S50000x128 ![] bcast_S_S50000x128 (constant (F := Ideal) S_ .f32 0x00000000#32))
      (broadcastInDim S640000x1 ![0] bcast_S640000_S640000x1_0 dst)
      (extf .f32 (Host.gather gather_S50000x128_S640000x1_S640000x128_1_0_n_n_0_1_1128 (truncf .bf16 x bitsLt_bf16_f32)
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 50000#32))) src))) bitsLt_bf16_f32)
    = Cert.GraphNet.aggregate src dst x := by
  rw [narrow_id3, widen_id3]
  rfl

variable (Wp : Valuation τ sig (Elt Ideal))

set_option maxHeartbeats 4000000 in
/-- The aggregated features after the stretch. -/
theorem ops3_agg :
    StableHlo.after hostOps3 Wp (Proc.devRef .tc main_v61)
      = Cert.GraphNet.aggregate (Wp (Proc.devRef .tc main_arg1)) (Wp (Proc.devRef .tc main_arg2)) (Wp (Proc.devRef .tc main_v49_1)) := by
  refine Eq.trans ?_ (aggregate_eq3 (Wp (Proc.devRef .tc main_arg1)) (Wp (Proc.devRef .tc main_arg2)) (Wp (Proc.devRef .tc main_v49_1)))
  delta hostOps3
  after_results
  first | done | rfl

set_option maxHeartbeats 4000000 in
/-- The layer's weight matrix after the stretch. -/
theorem ops3_weight :
    StableHlo.after hostOps3 Wp (Proc.devRef .tc main_v63) = Cert.GraphNet.weight2 (Wp (Proc.devRef .tc main_arg5)) := by
  refine Eq.trans ?_ (show shapeCast _ (extractStridedSlice S1x128x128 ![2, 0, 0] (Wp (Proc.devRef .tc main_arg5)) slices_S3x128x128_S1x128x128_2_0_0) shapeCasts_S1x128x128_S128x128
      = Cert.GraphNet.weight2 (Wp (Proc.devRef .tc main_arg5)) from rfl)
  delta hostOps3
  after_results
  first | done | rfl

set_option maxHeartbeats 4000000 in
/-- The layer's bias row after the stretch. -/
theorem ops3_bias :
    StableHlo.after hostOps3 Wp (Proc.devRef .tc main_v65) = Cert.GraphNet.bias2 (Wp (Proc.devRef .tc main_arg6)) := by
  refine Eq.trans ?_ (show shapeCast _ (extractStridedSlice S1x128 ![2, 0] (Wp (Proc.devRef .tc main_arg6)) slices_S3x128_S1x128_2_0) shapeCasts_S1x128_S128
      = Cert.GraphNet.bias2 (Wp (Proc.devRef .tc main_arg6)) from rfl)
  delta hostOps3
  after_results
  first | done | rfl

/-! The buffers the stretch leaves alone. -/
theorem ops3_keep_main_v14 : StableHlo.after hostOps3 Wp (Proc.devRef .tc main_v14) = Wp (Proc.devRef .tc main_v14) :=
  StableHlo.after_of_forall_not_mem (b := Proc.devRef .tc main_v14) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops3_keep_main_arg7 : StableHlo.after hostOps3 Wp (Proc.devRef .tc main_arg7) = Wp (Proc.devRef .tc main_arg7) :=
  StableHlo.after_of_forall_not_mem (b := Proc.devRef .tc main_arg7) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops3_keep_main_arg8 : StableHlo.after hostOps3 Wp (Proc.devRef .tc main_arg8) = Wp (Proc.devRef .tc main_arg8) :=
  StableHlo.after_of_forall_not_mem (b := Proc.devRef .tc main_arg8) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops3_keep_main_arg9 : StableHlo.after hostOps3 Wp (Proc.devRef .tc main_arg9) = Wp (Proc.devRef .tc main_arg9) :=
  StableHlo.after_of_forall_not_mem (b := Proc.devRef .tc main_arg9) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem ops3_keep_main_arg10 : StableHlo.after hostOps3 Wp (Proc.devRef .tc main_arg10) = Wp (Proc.devRef .tc main_arg10) :=
  StableHlo.after_of_forall_not_mem (b := Proc.devRef .tc main_arg10) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.KernelIdeal.Fold

end
-- ==== Proof.LibKeepDims.lean ====
/-
  Column forms of a kept reduced axis, read at an index given by coordinates.

  A row statistic of an `[a, b]` block (a mean, a variance) is computed as a lane sum `[a, b] → [a]`, viewed as a
  column `[a] → [a, 1]`, and spread back over the lanes `[a, 1] → [a, b]`. Here each of the three steps is read at an
  index written by its coordinates: the column view at `(i, u)` is the vector at `i`; the spread column at `(p, c)` is
  the column at `(p, 0)`; and, at the ideal values, the lane sum at `p` is `∑ k : Fin b` of row `p`. Also one column
  of a matrix (a unit-width slice along axis 1) read at `(p, u)`.
-/
import Idealize.ShloMosaic.PureOps.Ideal
import Idealize.ShloMosaic.PureOps.Ideal.Laws
import Idealize.ShloMosaic.Lib.ValueIdx
import Idealize.ShloMosaic.Lib.ValueLayout

noncomputable section

open scoped BigOperators

namespace Idealize.ShloMosaic.KeepDims

open Idealize.ShloMosaic Idealize.ShloMosaic.ValueIdx

variable {α : Type}

/-! ## The column view of a vector, and a column spread over the lanes -/

/-- An `[a]` vector viewed as a column `[a, 1]` reads, at `(i, u)`, the vector at `i`, whatever the unit coordinate
    `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Column `o` of an `[a, n]` matrix, cut out as an `[a, 1]` slice, reads at `(p, u)` the matrix at `(p, o)`. -/
theorem column_apply {a n : ℕ} (o : ℕ) (X : (⟨2, ![a, n]⟩ : Shape).Idx → α)
    (h : (⟨2, ![a, n]⟩ : Shape).Slices ![0, o] ⟨2, ![a, 1]⟩) (p : Fin a) (u : Fin 1) (k : Fin n) (hk : k.val = o) :
    extractStridedSlice ⟨2, ![a, 1]⟩ ![0, o] X h (ix2 p u) = X (ix2 p k) :=
  slice2_axis1_apply o X h p u k (by have : u.val = 0 := by omega
                                     omega)

/-! ## The lane sum of a block, at the ideal values -/

/-- The sum over the lanes (axis 1) of an `[a, b]` block, read at row `p`, is `∑ k : Fin b` of the block's row `p`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext ax
  match ax with
  | ⟨0, _⟩ => exact Fin.ext rfl
  | ⟨1, _⟩ => exact Fin.ext rfl

end Idealize.ShloMosaic.KeepDims

end
-- ==== Proof.LibProductEntry.lean ====
/-
  A matrix product read at an entry.

  Both programs contract the second axis of a left matrix `[M, K]` with the first axis of a right matrix `[K, N]`.
  At the ideal values the product's entry `(p, q)` is `∑ k : Fin K, x (p, k) * w (k, q)`, whether it is the host's
  product or the kernel's matrix multiplication onto a zero accumulator. The statement is proved once for any
  dimension record whose four coordinate maps are the expected ones; each record of the two programs then supplies
  those four facts.
-/
import Idealize.ShloMosaic.PureOps.Ideal
import Idealize.ShloMosaic.PureOps.Ideal.Laws
import Idealize.ShloMosaic.Lib.ValueIdx

noncomputable section

open scoped BigOperators

namespace Cert.ProductEntry

open Idealize.ShloMosaic Idealize.ShloMosaic.ValueIdx

/-- The sum over a one-axis contraction shape, re-indexed by the axis' coordinate: for a record whose left index is
    `(p, k)` and right index `(k, q)` at output `(p, q)` and contraction position `k`. -/
theorem sum_apply {M K N : ℕ} (D : DotDims ⟨2, ![M, K]⟩ ⟨2, ![K, N]⟩ ⟨2, ![M, N]⟩)
    (hr : D.contr.rank = 1) (hs : D.contr.size ⟨0, by omega⟩ = K)
    (hl0 : ∀ i k, (D.lhsIdx i k 0).val = (i 0).val)
    (hl1 : ∀ i k, (D.lhsIdx i k 1).val = (k ⟨0, by omega⟩).val)
    (hr0 : ∀ i k, (D.rhsIdx i k 0).val = (k ⟨0, by omega⟩).val)
    (hr1 : ∀ i k, (D.rhsIdx i k 1).val = (i 1).val)
    (x : (⟨2, ![M, K]⟩ : Shape).Idx → EReal) (w : (⟨2, ![K, N]⟩ : Shape).Idx → EReal) (p : Fin M) (q : Fin N) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.ProductEntry

end
-- ==== Proof.EmbedValue.lean ====
/-
  The embedding, entry by entry.

  Node `p`'s embedded channel `q` is `(∑ k : Fin 4, x (p, k) * W (k, q)) + b q`; the scaled embedding multiplies it
  by the node's number `s (p, 0)`. Here the host's composition (`embed`, `scaleRows`) and the kernel body's two stored
  values are each read at an entry `(p, q)` and shown to be that expression of their operands: the host's over the
  whole 50000-node arrays, the body's over one block of 5000 nodes.
-/
import proofs.«100711_j8830452760706_2_alg».proof.Proof.Network
import proofs.«100711_j8830452760706_2_alg».proof.Proof.Gen.KernelIdeal.Skeleton
import proofs.«100711_j8830452760706_2_alg».proof.Proof.LibKeepDims
import proofs.«100711_j8830452760706_2_alg».proof.Proof.LibProductEntry
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.EmbedValue

open Idealize.ShloMosaic Idealize.ShloMosaic.ValueIdx

/-- `x · W + b` at entry `(p, q)`, for `M` rows of `K` features and `N` output channels. -/
def affineEntry {M K N : ℕ} (x : (⟨2, ![M, K]⟩ : Shape).Idx → EReal) (W : (⟨2, ![K, N]⟩ : Shape).Idx → EReal)
    (b : (⟨1, ![N]⟩ : Shape).Idx → EReal) (p : Fin M) (q : Fin N) : EReal :=
  (∑ k : Fin K, x (ix2 p k) * W (ix2 k q)) + b (ix1 q)

/-! ## The host's side -/

section Host
open Cert.ReferenceIdeal Cert.ReferenceIdeal.Gen

/-- The host's 50000 × 4 by 4 × 128 product at an entry. -/
theorem hostProduct_entry (x : FVec Ideal S50000x4 .f32) (W : FVec Ideal S4x128 .f32) (p : Fin 50000) (q : Fin 128) :
    Host.dotGeneral (F := Ideal) dot_S50000x4_S4x128_S50000x128_1_0_0_1_n_n none x W (ix2 p q)
      = ∑ k : Fin 4, x (ix2 p k) * W (ix2 k q) := by
  simp only [Host.dotGeneral]
  rw [Ideal.dotGeneral_apply]
  exact Cert.ProductEntry.sum_apply dot_S50000x4_S4x128_S50000x128_1_0_0_1_n_n rfl rfl
    (fun i k => by
      unfold DotDims.lhsIdx
      rw [dif_neg (show ¬(0 : Fin S50000x4.rank) ∈ dot_S50000x4_S4x128_S50000x128_1_0_0_1_n_n.lhsBatch by decide), dif_pos (show (0 : Fin S50000x4.rank) ∈ dot_S50000x4_S4x128_S50000x128_1_0_0_1_n_n.lhsNonContracting by decide)]
      rfl)
    (fun i k => dot_S50000x4_S4x128_S50000x128_1_0_0_1_n_n.lhsIdx_val_of_single rfl i k)
    (fun i k => dot_S50000x4_S4x128_S50000x128_1_0_0_1_n_n.rhsIdx_val_of_single rfl i k)
    (fun i k => by
      unfold DotDims.rhsIdx
      rw [dif_neg (show ¬(1 : Fin S4x128.rank) ∈ dot_S50000x4_S4x128_S50000x128_1_0_0_1_n_n.rhsBatch by decide), dif_pos (show (1 : Fin S4x128.rank) ∈ dot_S50000x4_S4x128_S50000x128_1_0_0_1_n_n.rhsNonContracting by decide)]
      rfl)
    x W p q

/-- The bias row repeated on every node, at an entry. -/
theorem biasRows_entry (b : FVec Ideal S128 .f32) (p : Fin 50000) (q : Fin 128) :
    Cert.GraphNet.biasRows b (ix2 p q) = b (ix1 q) := by
  unfold Cert.GraphNet.biasRows
  refine (broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The host's embedding at an entry. -/
theorem embed_entry (x : FVec Ideal S50000x4 .f32) (W : FVec Ideal S4x128 .f32) (b : FVec Ideal S128 .f32)
    (p : Fin 50000) (q : Fin 128) :
    Cert.GraphNet.embed x W b (ix2 p q) = affineEntry x W b p q := by
  unfold Cert.GraphNet.embed affineEntry
  refine (addf_apply _ _ _).trans ?_
  rw [hostProduct_entry, biasRows_entry]

/-- Rows scaled by a column, at an entry. -/
theorem scaleRows_entry (x : FVec Ideal S50000x128 .f32) (s : FVec Ideal S50000x1 .f32) (p : Fin 50000) (q : Fin 128) :
    Cert.GraphNet.scaleRows x s (ix2 p q) = x (ix2 p q) * s (ix2 p (0 : Fin 1)) := by
  unfold Cert.GraphNet.scaleRows
  refine (mulf_apply _ _ _).trans ?_
  congr 1
  exact broadcastInDim_apply _ bcast_S50000x1_S50000x128_0_1 s (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])

end Host

/-! ## The kernel body's side -/

section Body
open Cert.KernelIdeal Cert.KernelIdeal.Gen

/-- The body's 5000 × 4 by 4 × 128 matrix multiplication onto zero, at an entry. -/
theorem bodyProduct_entry (x : FVec Ideal S5000x4 .bf16) (W : FVec Ideal S4x128 .bf16) (p : Fin 5000) (q : Fin 128) :
    matmul (F := Ideal) dot_S5000x4_S4x128_S5000x128_1_0_0_1_n_n none x W (constant S5000x128 .f32 0x00000000#32) (ix2 p q)
      = ∑ k : Fin 4, x (ix2 p k) * W (ix2 k q) := by
  refine (Ideal.matmul_constant_zero_apply dot_S5000x4_S4x128_S5000x128_1_0_0_1_n_n none x W (ix2 p q)).trans ?_
  exact Cert.ProductEntry.sum_apply dot_S5000x4_S4x128_S5000x128_1_0_0_1_n_n rfl rfl
    (fun i k => by
      unfold DotDims.lhsIdx
      rw [dif_neg (show ¬(0 : Fin S5000x4.rank) ∈ dot_S5000x4_S4x128_S5000x128_1_0_0_1_n_n.lhsBatch by decide), dif_pos (show (0 : Fin S5000x4.rank) ∈ dot_S5000x4_S4x128_S5000x128_1_0_0_1_n_n.lhsNonContracting by decide)]
      rfl)
    (fun i k => dot_S5000x4_S4x128_S5000x128_1_0_0_1_n_n.lhsIdx_val_of_single rfl i k)
    (fun i k => dot_S5000x4_S4x128_S5000x128_1_0_0_1_n_n.rhsIdx_val_of_single rfl i k)
    (fun i k => by
      unfold DotDims.rhsIdx
      rw [dif_neg (show ¬(1 : Fin S4x128.rank) ∈ dot_S5000x4_S4x128_S5000x128_1_0_0_1_n_n.rhsBatch by decide), dif_pos (show (1 : Fin S4x128.rank) ∈ dot_S5000x4_S4x128_S5000x128_1_0_0_1_n_n.rhsNonContracting by decide)]
      rfl)
    x W p q

/-- The bias row spread over the block's 5000 nodes, at an entry. -/
theorem bodyBias_entry (b : FVec Ideal S128 .f32) (p : Fin 5000) (q : Fin 128) :
    broadcastTo S5000x128 (shapeCast S1x128 b shapeCasts_S128_S1x128) broadcasts_S1x128_S5000x128 (ix2 p q) = b (ix1 q) := by
  refine (broadcastTo_apply _ broadcasts_S1x128_S5000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  refine shapeCast_apply b shapeCasts_S128_S1x128 (ix2 (0 : Fin 1) q) (ix1 q) ?_
  rw [Shape.rowMajor_val_two, Shape.rowMajor_val_one]
  show q.val = 0 * 128 + q.val
  omega

/-- The first stored value (the embedding of the block's nodes) at an entry. -/
theorem k0_pay1_entry (v0 : FVec Ideal S5000x4 .f32) (v2 : FVec Ideal S4x128 .f32) (v5 : FVec Ideal S128 .f32)
    (p : Fin 5000) (q : Fin 128) :
    k0_pay1 (F := Ideal) v0 v2 v5 (ix2 p q) = affineEntry v0 v2 v5 p q := by
  unfold k0_pay1 affineEntry
  refine (addf_apply _ _ _).trans ?_
  rw [bodyProduct_entry, bodyBias_entry]
  rfl

/-- The second stored value (the embedding scaled by the block's column) at an entry. -/
theorem k0_pay2_entry (v0 : FVec Ideal S5000x4 .f32) (v2 : FVec Ideal S4x128 .f32) (v5 : FVec Ideal S128 .f32)
    (v10 : FVec Ideal S5000x1 .f32) (p : Fin 5000) (q : Fin 128) :
    k0_pay2 (F := Ideal) v0 v2 v5 v10 (ix2 p q) = affineEntry v0 v2 v5 p q * v10 (ix2 p (0 : Fin 1)) := by
  unfold k0_pay2
  refine (mulf_apply _ _ _).trans ?_
  rw [k0_pay1_entry]
  congr 1
  refine (Idealize.ShloMosaic.KeepDims.broadcastTo_a1_ab_apply _ broadcasts_S5000x1_S5000x128 p q).trans ?_
  rw [shapeCast_self]

end Body

end Cert.EmbedValue

end
-- ==== Proof.EmbedRegion.lean ====
/-
  The embedding region: from blocks to the whole array.

  The region visits ten blocks of 5000 nodes. At block `t` its body reads rows `5000 t … 5000 t + 4999` of the node
  features and of the scaling column, the whole weight matrix and bias row, and stores the scaled embedding of those
  rows. So what block `t` writes back is block `t` of the host's scaled embedding of the whole arrays; the ten blocks
  cover every node; hence the output array ends holding the host's scaled embedding.
-/
import proofs.«100711_j8830452760706_2_alg».proof.Proof.EmbedValue
import proofs.«100711_j8830452760706_2_alg».proof.Proof.Gen.KernelIdeal.Frame
import Idealize.ShloMosaic.Lib.Pipeline.Value

noncomputable section

open scoped BigOperators

namespace Cert.Regions

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

private theorem zeros2 : (![0, 0] : Fin 2 → Nat) = fun _ => 0 := funext fun a => by fin_cases a <;> rfl
private theorem zeros1 : (![0] : Fin 1 → Nat) = fun _ => 0 := funext fun a => by fin_cases a; rfl

/-- The block indices of the embedding region's windows at grid point `t`: the node-feature, scaling-column and
    output windows are at block row `t`; the weight and bias windows stay at their one block. -/
theorem embed_block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_5.index t (0 : Fin 2) = t.val ∧ win0_5.index t (1 : Fin 2) = 0 :=
  (by decide +kernel : ∀ t : Fin grid0.N, _)

/-- The scaled embedding of a block of rows is the rows of the scaled embedding of the whole arrays: entry `y` of
    the body's second stored value, over blocks that hold rows `r …` of the features and of the column, is entry `i`
    of the host's composition when `i` is `y` moved down by `r` rows. -/
theorem embed_scaled_block_entry (x0 : FVec Ideal S5000x4 .f32) (x1 : FVec Ideal S4x128 .f32) (x2 : FVec Ideal S128 .f32)
    (x3 : FVec Ideal S5000x1 .f32)
    (X : FVec Ideal S50000x4 .f32) (W : FVec Ideal S4x128 .f32) (b : FVec Ideal S128 .f32) (s : FVec Ideal S50000x1 .f32)
    (y : S5000x128.Idx) (i : S50000x128.Idx) (r : ℕ)
    (hi0 : (i 0).val = r + (y 0).val) (hi1 : (i 1).val = (y 1).val)
    (h0 : ∀ (j : S5000x4.Idx) (J : S50000x4.Idx), (J 0).val = r + (j 0).val → (J 1).val = (j 1).val → x0 j = X J)
    (h1 : x1 = W) (h2 : x2 = b)
    (h3 : ∀ (j : S5000x1.Idx) (J : S50000x1.Idx), (J 0).val = r + (j 0).val → (J 1).val = (j 1).val → x3 j = s J) :
    k0_pay2 (F := Ideal) x0 x1 x2 x3 y = Cert.GraphNet.scaleRows (Cert.GraphNet.embed X W b) s i := by
  obtain ⟨p, q, rfl⟩ : ∃ (p : Fin 5000) (q : Fin 128), y = ix2 p q := ⟨y 0, y 1, eq_ix2 y⟩
  obtain ⟨P, Q, rfl⟩ : ∃ (P : Fin 50000) (Q : Fin 128), i = ix2 P Q := ⟨i 0, i 1, eq_ix2 i⟩
  have hP : P.val = r + p.val := hi0
  have hQ : Q = q := Fin.ext hi1
  subst hQ h1 h2
  rw [Cert.EmbedValue.k0_pay2_entry, Cert.EmbedValue.scaleRows_entry, Cert.EmbedValue.embed_entry]
  unfold Cert.EmbedValue.affineEntry
  rw [h3 (ix2 p (0 : Fin 1)) (ix2 P (0 : Fin 1)) hP rfl]
  congr 2
  exact Finset.sum_congr rfl fun k _ => by rw [h0 (ix2 p k) (ix2 P k) hP rfl]

/-- The node-feature window's block at point `t` is rows `5000 t …` of the feature array. -/
theorem embed_features_block (c : Dev nD) (t : Fin cfg0.N) (j : S5000x4.Idx) (J : S50000x4.Idx)
    (e0 : (J 0).val = 5000 * t.val + (j 0).val) (e1 : (J 1).val = (j 1).val) :
    (iblk0 V c 0 t : FVec Ideal S5000x4 .f32) j = (V c main_arg0 : FVec Ideal S50000x4 .f32) J := by
  obtain ⟨f0, f1, -⟩ := embed_block_indices t
  unfold iblk0
  rw [View.read_apply]
  show V c main_arg0 _ = V c main_arg0 _
  congr 1
  funext a
  apply Fin.ext
  match a with
  | ⟨0, _⟩ => show win0_0.index t (0 : Fin 2) * 5000 + 1 * (j 0).val = (J 0).val; rw [f0, e0]; omega
  | ⟨1, _⟩ => show win0_0.index t (1 : Fin 2) * 4 + 1 * (j 1).val = (J 1).val; rw [f1, e1]; omega

/-- The scaling-column window's block at point `t` is rows `5000 t …` of the column. -/
theorem embed_column_block (c : Dev nD) (t : Fin cfg0.N) (j : S5000x1.Idx) (J : S50000x1.Idx)
    (e0 : (J 0).val = 5000 * t.val + (j 0).val) (e1 : (J 1).val = (j 1).val) :
    (iblk0 V c 3 t : FVec Ideal S5000x1 .f32) j = (V c main_v11 : FVec Ideal S50000x1 .f32) J := by
  obtain ⟨-, -, -, -, -, f0, f1, -⟩ := embed_block_indices t
  unfold iblk0
  rw [View.read_apply]
  show V c main_v11 _ = V c main_v11 _
  congr 1
  funext a
  apply Fin.ext
  match a with
  | ⟨0, _⟩ => show win0_3.index t (0 : Fin 2) * 5000 + 1 * (j 0).val = (J 0).val; rw [f0, e0]; omega
  | ⟨1, _⟩ => show win0_3.index t (1 : Fin 2) * 1 + 1 * (j 1).val = (J 1).val; rw [f1, e1]; omega

/-- The weight window's block is the whole weight matrix at every point. -/
theorem embed_weight_block (c : Dev nD) (t : Fin cfg0.N) :
    (iblk0 V c 1 t : FVec Ideal S4x128 .f32) = (V c main_arg3 : FVec Ideal S4x128 .f32) := by
  obtain ⟨-, -, f0, f1, -⟩ := embed_block_indices t
  funext j
  unfold iblk0
  rw [View.read_apply]
  show V c main_arg3 _ = V c main_arg3 _
  congr 1
  funext a
  apply Fin.ext
  match a with
  | ⟨0, _⟩ => show win0_1.index t (0 : Fin 2) * 4 + 1 * (j 0).val = (j 0).val; rw [f0]; omega
  | ⟨1, _⟩ => show win0_1.index t (1 : Fin 2) * 128 + 1 * (j 1).val = (j 1).val; rw [f1]; omega

/-- The bias window's block is the whole bias row at every point. -/
theorem embed_bias_block (c : Dev nD) (t : Fin cfg0.N) :
    (iblk0 V c 2 t : FVec Ideal S128 .f32) = (V c main_arg4 : FVec Ideal S128 .f32) := by
  obtain ⟨-, -, -, -, f0, -⟩ := embed_block_indices t
  funext j
  unfold iblk0
  rw [View.read_apply]
  show V c main_arg4 _ = V c main_arg4 _
  congr 1
  funext a
  apply Fin.ext
  match a with
  | ⟨0, _⟩ => show win0_2.index t (0 : Fin 1) * 128 + 1 * (j 0).val = (j 0).val; rw [f0]; omega

/-- What point `t` writes back into the scaled output is block `t` of the host's scaled embedding of the arrays as
    the region finds them. -/
theorem embed_flushed (c : Dev nD) (t : Fin cfg0.N) :
    (dat0 (F := Ideal) V c).flushed 5 t = ((cfg0.win 5).blk t).view.read (Elt Ideal)
      (Cert.GraphNet.scaleRows (Cert.GraphNet.embed (V c main_arg0) (V c main_arg3) (V c main_arg4)) (V c main_v11)) := by
  show (cfg0.win 5).cut (grid0.coords t) ((dat0 V c).after 5 t) = _
  rw [after0_5]
  unfold out0_5
  rw [View.canon_unit_zero zeros2]
  simp only [View.ld_unit_zero (S := S5000x4) zeros2, View.ld_unit_zero (S := S4x128) zeros2,
    View.ld_unit_zero (S := S128) zeros1, View.ld_unit_zero (S := S5000x1) zeros2]
  obtain ⟨-, -, -, -, -, -, -, f0, f1⟩ := embed_block_indices t
  funext y
  rw [View.read_apply]
  refine embed_scaled_block_entry _ _ _ _ _ _ _ _ y _ (5000 * t.val) ?_ ?_
    (fun j J e0 e1 => embed_features_block V c t j J e0 e1) (embed_weight_block V c t) (embed_bias_block V c t)
    (fun j J e0 e1 => embed_column_block V c t j J e0 e1)
  · show win0_5.index t (0 : Fin 2) * 5000 + 1 * (y 0).val = 5000 * t.val + (y 0).val
    rw [f0]; omega
  · show win0_5.index t (1 : Fin 2) * 128 + 1 * (y 1).val = (y 1).val
    rw [f1]; omega

/-- Every node's row is in the block of the point `row / 5000`. -/
theorem embed_cover (i : S50000x128.Idx) :
    ∃ t : Fin cfg0.N, (cfg0.win 5).flush t = true ∧ i ∈ ((cfg0.win 5).blk t).view.set := by
  have hN : cfg0.N = 10 := N_0
  have hi0 : (i 0).val < 50000 := (i 0).isLt
  have hi1 : (i 1).val < 128 := (i 1).isLt
  let t : Fin cfg0.N := ⟨(i 0).val / 5000, by rw [hN]; omega⟩
  have ht : t.val = (i 0).val / 5000 := rfl
  obtain ⟨-, -, -, -, -, -, -, f0, f1⟩ := embed_block_indices t
  refine ⟨t, flush0_5 t, ?_⟩
  show i ∈ ((View.whole main_v15_1).slice (win0_5.rect t)).set
  rw [View.set_slice_whole, Rect.mem_set_unit]
  intro a
  match a with
  | ⟨0, _⟩ =>
    show win0_5.index t (0 : Fin 2) * 5000 ≤ (i 0).val ∧ (i 0).val < win0_5.index t (0 : Fin 2) * 5000 + 5000
    rw [f0, ht]; omega
  | ⟨1, _⟩ =>
    show win0_5.index t (1 : Fin 2) * 128 ≤ (i 1).val ∧ (i 1).val < win0_5.index t (1 : Fin 2) * 128 + 128
    rw [f1]; omega

/-- THE EMBEDDING REGION'S OUTPUT: after the ten points the scaled output array holds the host's scaled embedding of
    the arrays the region was entered with. -/
theorem embed_array (c : Dev nD) :
    (dat0 (F := Ideal) V c).arrAt 5 cfg0.N
      = Cert.GraphNet.scaleRows (Cert.GraphNet.embed (V c main_arg0) (V c main_arg3) (V c main_arg4)) (V c main_v11) :=
  (dat0 (F := Ideal) V c).arrAt_eq_of_cover 5 _ (fun t _ => embed_flushed V c t) embed_cover

end Cert.Regions

end
-- ==== Proof.ConvRef.lean ====
/-
  The reference's graph-convolution maps read at an index given by its coordinates (node p, channel q).

  * a feature array scaled row-wise by a column:  (scaleRows x k) (p, q) = x (p, q) · k (p, 0);
  * a row repeated on every node:                 (biasRows b) (p, q)   = b q;
  * the all-zero feature array is 0 everywhere;
  * the product with a 128 × 128 matrix:          (x · W) (p, q)         = Σ_j x (p, j) · W (j, q);
  * hence one convolution:  (conv a W b k) (p, q) = max ((Σ_j (a (p, j) · k (p, 0)) · W (j, q)) + b q) 0,
    and the convolution scaled again by a second column.
-/
import proofs.«100711_j8830452760706_2_alg».proof.Proof.Network
import Idealize.ShloMosaic.Lib.Pipeline.Value
import Idealize.ShloMosaic.Lib.ValueIdx
import Idealize.ShloMosaic.PureOps.Ideal.Laws

noncomputable section

open scoped BigOperators

namespace Cert.GraphNet.ConvAt

open Cert.ReferenceIdeal Cert.ReferenceIdeal.Gen Idealize.ShloMosaic Idealize.ShloMosaic.TcCoe
open Idealize.ShloMosaic.ValueIdx

/-- Row p of `x` times the number the column holds for node p. -/
theorem scaleRows_apply (x : Feat) (k : Col) (p : Fin 50000) (q : Fin 128) :
    scaleRows x k (ix2 p q) = x (ix2 p q) * k (ix2 p (0 : Fin 1)) := by
  unfold scaleRows
  refine (mulf_apply x _ (ix2 p q)).trans (congrArg (fun z => x (ix2 p q) * z) ?_)
  exact broadcastInDim_apply _ bcast_S50000x1_S50000x128_0_1 k (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])

/-- The repeated row reads, at (p, q), the row's entry q. -/
theorem biasRows_apply (b : Row) (p : Fin 50000) (q : Fin 128) : biasRows b (ix2 p q) = b (ix1 q) := by
  unfold biasRows
  refine (broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The all-zero feature array is 0 at every index. -/
theorem zeroFeat_apply (i : S50000x128.Idx) : zeroFeat i = 0 := by
  unfold zeroFeat
  refine (broadcastInDim_apply _ bcast_S_S50000x128 _ i ix0 (fun a => a.elim0)).trans ?_
  exact (constant_apply (s := S_) (φ := .f32) 0x00000000#32 ix0).trans Ideal.ofBits_zero_f32

/-! ## The product with a 128 × 128 matrix -/

theorem dot_lhs_0 (i : S50000x128.Idx) (r : dot_S50000x128_S128x128_S50000x128_1_0_0_1_n_n.contr.Idx) :
    (dot_S50000x128_S128x128_S50000x128_1_0_0_1_n_n.lhsIdx i r 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem dot_lhs_1 (i : S50000x128.Idx) (r : dot_S50000x128_S128x128_S50000x128_1_0_0_1_n_n.contr.Idx) :
    (dot_S50000x128_S128x128_S50000x128_1_0_0_1_n_n.lhsIdx i r 1).val = (r ⟨0, by decide⟩).val :=
  dot_S50000x128_S128x128_S50000x128_1_0_0_1_n_n.lhsIdx_val_of_single rfl i r
theorem dot_rhs_0 (i : S50000x128.Idx) (r : dot_S50000x128_S128x128_S50000x128_1_0_0_1_n_n.contr.Idx) :
    (dot_S50000x128_S128x128_S50000x128_1_0_0_1_n_n.rhsIdx i r 0).val = (r ⟨0, by decide⟩).val :=
  dot_S50000x128_S128x128_S50000x128_1_0_0_1_n_n.rhsIdx_val_of_single rfl i r
theorem dot_rhs_1 (i : S50000x128.Idx) (r : dot_S50000x128_S128x128_S50000x128_1_0_0_1_n_n.contr.Idx) :
    (dot_S50000x128_S128x128_S50000x128_1_0_0_1_n_n.rhsIdx i r 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- (x · W) (p, q) = Σ_j x (p, j) · W (j, q). -/
theorem dot_apply (x : Feat) (W : Mat) (p : Fin 50000) (q : Fin 128) :
    Host.dotGeneral dot_S50000x128_S128x128_S50000x128_1_0_0_1_n_n none x W (ix2 p q)
      = ∑ j : Fin 128, x (ix2 p j) * W (ix2 j q) := by
  simp only [Host.dotGeneral]
  rw [Ideal.dotGeneral_apply, ← Equiv.sum_comp (contrEquiv1 dot_S50000x128_S128x128_S50000x128_1_0_0_1_n_n 128 rfl rfl).symm]
  refine Finset.sum_congr rfl fun j _ => ?_
  have hj := contrEquiv1_symm_val dot_S50000x128_S128x128_S50000x128_1_0_0_1_n_n 128 rfl rfl j
  have el : dot_S50000x128_S128x128_S50000x128_1_0_0_1_n_n.lhsIdx (ix2 p q) ((contrEquiv1 dot_S50000x128_S128x128_S50000x128_1_0_0_1_n_n 128 rfl rfl).symm j) = ix2 p j := funext fun a => Fin.ext (by
    match a with
    | ⟨0, _⟩ => exact dot_lhs_0 _ _
    | ⟨1, _⟩ => exact (dot_lhs_1 _ _).trans hj)
  have er : dot_S50000x128_S128x128_S50000x128_1_0_0_1_n_n.rhsIdx (ix2 p q) ((contrEquiv1 dot_S50000x128_S128x128_S50000x128_1_0_0_1_n_n 128 rfl rfl).symm j) = ix2 j q := funext fun a => Fin.ext (by
    match a with
    | ⟨0, _⟩ => exact (dot_rhs_0 _ _).trans hj
    | ⟨1, _⟩ => exact dot_rhs_1 _ _)
  rw [el, er]

/-! ## One convolution -/

/-- (conv a W b k) (p, q) = max ((Σ_j (a (p, j) · k (p, 0)) · W (j, q)) + b q) 0. -/
theorem conv_apply (a : Feat) (W : Mat) (b : Row) (k : Col) (p : Fin 50000) (q : Fin 128) :
    conv a W b k (ix2 p q)
      = max ((∑ j : Fin 128, (a (ix2 p j) * k (ix2 p (0 : Fin 1))) * W (ix2 j q)) + b (ix1 q)) 0 := by
  unfold conv relu dense
  refine (maximumf_apply _ _ (ix2 p q)).trans ?_
  rw [zeroFeat_apply]
  refine congrArg (fun z => max z (0 : EReal)) ?_
  refine (addf_apply _ _ (ix2 p q)).trans ?_
  rw [biasRows_apply, dot_apply]
  refine congrArg (fun z => z + b (ix1 q)) (Finset.sum_congr rfl fun j _ => ?_)
  rw [scaleRows_apply]

/-- The convolution scaled again by a second column k'. -/
theorem scaled_conv_apply (a : Feat) (W : Mat) (b : Row) (k k' : Col) (p : Fin 50000) (q : Fin 128) :
    scaleRows (conv a W b k) k' (ix2 p q)
      = max ((∑ j : Fin 128, (a (ix2 p j) * k (ix2 p (0 : Fin 1))) * W (ix2 j q)) + b (ix1 q)) 0 * k' (ix2 p (0 : Fin 1)) := by
  rw [scaleRows_apply, conv_apply]

end Cert.GraphNet.ConvAt

end
-- ==== Proof.ConvPay.lean ====
/-
  What one grid point of a graph-convolution kernel computes, read at an index given by its coordinates
  (row p of the 5000-row block, channel q).

  The body scales its block of aggregated features row-wise by the in-degree column, multiplies by the 128 × 128
  weights, adds the bias row and clamps below at 0; the two middle convolutions store that and also its row-wise
  product with the out-degree column. At the ideal values a change of format is the identity, so
    payload (p, q) = max ((Σ_j (a (p, j) · k (p, 0)) · W (j, q)) + b q) 0        (and that times k' (p, 0)).
-/
import proofs.«100711_j8830452760706_2_alg».proof.Proof.Gen.KernelIdeal.Skeleton
import proofs.«100711_j8830452760706_2_alg».proof.Proof.LibKeepDims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Regions.Conv

open Cert.KernelIdeal Cert.KernelIdeal.Gen Idealize.ShloMosaic Idealize.ShloMosaic.TcCoe
open Idealize.ShloMosaic.ValueIdx

/-! ## The block product with the weights -/

theorem mm_lhs_0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm_lhs_1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
theorem mm_rhs_0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
theorem mm_rhs_1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product from a zero accumulator: (x · W) (p, q) = Σ_j x (p, j) · W (j, q). -/
theorem mm_apply (x : FVec Ideal S5000x128 .bf16) (W : FVec Ideal S128x128 .bf16) (p : Fin 5000) (q : Fin 128) :
    matmul dot_S5000x128_S128x128_S5000x128_1_0_0_1_n_n none x W (constant (F := Ideal) S5000x128 .f32 0x00000000#32) (ix2 p q)
      = ∑ j : Fin 128, x (ix2 p j) * W (ix2 j q) := by
  refine (Ideal.matmul_constant_zero_apply dot_S5000x128_S128x128_S5000x128_1_0_0_1_n_n none x W (ix2 p q)).trans ?_
  rw [← Equiv.sum_comp (contrEquiv1 dot_S5000x128_S128x128_S5000x128_1_0_0_1_n_n 128 rfl rfl).symm]
  refine Finset.sum_congr rfl fun j _ => ?_
  have hj := contrEquiv1_symm_val dot_S5000x128_S128x128_S5000x128_1_0_0_1_n_n 128 rfl rfl j
  have el : dot_S5000x128_S128x128_S5000x128_1_0_0_1_n_n.lhsIdx (ix2 p q) ((contrEquiv1 dot_S5000x128_S128x128_S5000x128_1_0_0_1_n_n 128 rfl rfl).symm j) = ix2 p j := funext fun a => Fin.ext (by
    match a with
    | ⟨0, _⟩ => exact mm_lhs_0 _ _
    | ⟨1, _⟩ => exact (mm_lhs_1 _ _).trans hj)
  have er : dot_S5000x128_S128x128_S5000x128_1_0_0_1_n_n.rhsIdx (ix2 p q) ((contrEquiv1 dot_S5000x128_S128x128_S5000x128_1_0_0_1_n_n 128 rfl rfl).symm j) = ix2 j q := funext fun a => Fin.ext (by
    match a with
    | ⟨0, _⟩ => exact (mm_rhs_0 _ _).trans hj
    | ⟨1, _⟩ => exact mm_rhs_1 _ _)
  rw [el, er]

/-! ## The bias row and a degree column spread over the block -/

/-- The bias row viewed as 1 × 128 and repeated on the block's rows reads, at (p, q), the row's entry q. -/
theorem rowBias_apply (b : Vec Ideal S128 .f32) (p : Fin 5000) (q : Fin 128) :
    broadcastTo S5000x128 (shapeCast S1x128 b shapeCasts_S128_S1x128) broadcasts_S1x128_S5000x128 (ix2 p q) = b (ix1 q) := by
  refine (broadcastTo_apply _ broadcasts_S1x128_S5000x128 (ix2 p q) (ix2 (0 : Fin 1) q) fun a => ?_).trans ?_
  · match a with
    | ⟨0, _⟩ => show (0 : ℕ) = if (1 : ℕ) = 1 then 0 else p.val; rw [if_pos rfl]
    | ⟨1, _⟩ => show q.val = if (128 : ℕ) = 1 then 0 else q.val; rw [if_neg (by decide)]
  · refine shapeCast_apply b shapeCasts_S128_S1x128 (ix2 (0 : Fin 1) q) (ix1 q) ?_
    rw [Shape.rowMajor_val_two, Shape.rowMajor_val_one]
    show q.val = 0 * 128 + q.val
    omega

/-- A 5000 × 1 column spread over the 128 channels reads, at (p, q), the column's entry of row p. -/
theorem col_apply (k : Vec Ideal S5000x1 .f32) (p : Fin 5000) (q : Fin 128) :
    broadcastTo S5000x128 k broadcasts_S5000x1_S5000x128 (ix2 p q) = k (ix2 p (0 : Fin 1)) :=
  KeepDims.broadcastTo_a1_ab_apply k broadcasts_S5000x1_S5000x128 p q

/-! ## The payloads -/

/-- The stored convolution at (p, q): max ((Σ_j (a (p, j) · k (p, 0)) · W (j, q)) + b q) 0. -/
theorem conv_pay_apply (a : Vec Ideal S5000x128 .f32) (k : Vec Ideal S5000x1 .f32) (W : Vec Ideal S128x128 .f32)
    (b : Vec Ideal S128 .f32) (p : Fin 5000) (q : Fin 128) :
    k1_pay1 (F := Ideal) a k W b (ix2 p q)
      = max ((∑ j : Fin 128, (a (ix2 p j) * k (ix2 p (0 : Fin 1))) * W (ix2 j q)) + b (ix1 q)) 0 := by
  unfold k1_pay1
  simp only [shapeCast_self]
  refine (maximumf_apply _ _ (ix2 p q)).trans ?_
  refine congrArg₂ max ?_ ?_
  · refine (addf_apply _ _ (ix2 p q)).trans ?_
    rw [rowBias_apply, mm_apply]
    refine congrArg (fun z => z + b (ix1 q)) (Finset.sum_congr rfl fun j _ => ?_)
    show (a (ix2 p j) * broadcastTo S5000x128 k broadcasts_S5000x1_S5000x128 (ix2 p j)) * W (ix2 j q) = _
    rw [col_apply]
  · exact Ideal.ofBits_zero_f32

/-- The second store of a middle convolution: the first one times the second column's entry of row p. -/
theorem scaled_pay_apply (a : Vec Ideal S5000x128 .f32) (k : Vec Ideal S5000x1 .f32) (W : Vec Ideal S128x128 .f32)
    (b : Vec Ideal S128 .f32) (k' : Vec Ideal S5000x1 .f32) (p : Fin 5000) (q : Fin 128) :
    k1_pay2 (F := Ideal) a k W b k' (ix2 p q)
      = max ((∑ j : Fin 128, (a (ix2 p j) * k (ix2 p (0 : Fin 1))) * W (ix2 j q)) + b (ix1 q)) 0 * k' (ix2 p (0 : Fin 1)) := by
  unfold k1_pay2
  simp only [shapeCast_self]
  refine (mulf_apply _ _ (ix2 p q)).trans ?_
  rw [conv_pay_apply, col_apply]

/-- The second and the last convolution's bodies are the first one's term. -/
theorem k2_pay1_eq : @k2_pay1 Ideal _ = @k1_pay1 Ideal _ := rfl
theorem k2_pay2_eq : @k2_pay2 Ideal _ = @k1_pay2 Ideal _ := rfl
theorem k3_pay1_eq : @k3_pay1 Ideal _ = @k1_pay1 Ideal _ := rfl

end Cert.Regions.Conv

end
-- ==== Proof.ConvPoint.lean ====
/-
  One grid point of a graph convolution against the whole-array map.

  Let a 5000-row block be rows T·5000 … T·5000 + 4999 of the aggregated features A and of the two degree columns
  K, K', and let the weights and the bias be the whole arrays. Then what the body stores at (p, q) of the block is
  the whole-array convolution (scaled by K' for the middle layers) at (T·5000 + p, q): both are
    max ((Σ_j (A (P, j) · K (P, 0)) · W (j, q)) + b q) 0      with P = T·5000 + p.
-/
import proofs.«100711_j8830452760706_2_alg».proof.Proof.ConvRef
import proofs.«100711_j8830452760706_2_alg».proof.Proof.ConvPay

noncomputable section

open scoped BigOperators

namespace Cert.Regions.Conv

open Cert.KernelIdeal Cert.KernelIdeal.Gen Idealize.ShloMosaic Idealize.ShloMosaic.TcCoe
open Idealize.ShloMosaic.ValueIdx

/-- The last layer's point: the stored block entry is the convolution of the arrays at the entry's global index. -/
theorem conv_point (A : Vec Ideal S50000x128 .f32) (Wm : Vec Ideal S128x128 .f32) (bv : Vec Ideal S128 .f32)
    (K : Vec Ideal S50000x1 .f32)
    (a : Vec Ideal S5000x128 .f32) (k : Vec Ideal S5000x1 .f32) (W : Vec Ideal S128x128 .f32) (b : Vec Ideal S128 .f32)
    (T : ℕ)
    (ha : ∀ (p : Fin 5000) (P : Fin 50000) (j : Fin 128), P.val = T * 5000 + p.val → a (ix2 p j) = A (ix2 P j))
    (hk : ∀ (p : Fin 5000) (P : Fin 50000), P.val = T * 5000 + p.val → k (ix2 p (0 : Fin 1)) = K (ix2 P (0 : Fin 1)))
    (hW : W = Wm) (hb : b = bv)
    (y : S5000x128.Idx) (i : S50000x128.Idx) (h0 : (i 0).val = T * 5000 + (y 0).val) (h1 : (i 1).val = (y 1).val) :
    k1_pay1 (F := Ideal) a k W b y = Cert.GraphNet.conv A Wm bv K i := by
  subst hW hb
  obtain ⟨p, q, rfl⟩ : ∃ (p : Fin 5000) (q : Fin 128), y = ix2 p q := ⟨y 0, y 1, eq_ix2 y⟩
  obtain ⟨P, Q, rfl⟩ : ∃ (P : Fin 50000) (Q : Fin 128), i = ix2 P Q := ⟨i 0, i 1, eq_ix2 i⟩
  have hP : P.val = T * 5000 + p.val := h0
  obtain rfl : Q = q := Fin.ext h1
  rw [conv_pay_apply, Cert.GraphNet.ConvAt.conv_apply]
  refine congrArg (fun z => max (z + b (ix1 Q)) 0) (Finset.sum_congr rfl fun j _ => ?_)
  rw [ha p P j hP, hk p P hP]

/-- A middle layer's second store: the same, scaled by the second column. -/
theorem scaled_point (A : Vec Ideal S50000x128 .f32) (Wm : Vec Ideal S128x128 .f32) (bv : Vec Ideal S128 .f32)
    (K K' : Vec Ideal S50000x1 .f32)
    (a : Vec Ideal S5000x128 .f32) (k : Vec Ideal S5000x1 .f32) (W : Vec Ideal S128x128 .f32) (b : Vec Ideal S128 .f32)
    (k' : Vec Ideal S5000x1 .f32) (T : ℕ)
    (ha : ∀ (p : Fin 5000) (P : Fin 50000) (j : Fin 128), P.val = T * 5000 + p.val → a (ix2 p j) = A (ix2 P j))
    (hk : ∀ (p : Fin 5000) (P : Fin 50000), P.val = T * 5000 + p.val → k (ix2 p (0 : Fin 1)) = K (ix2 P (0 : Fin 1)))
    (hk' : ∀ (p : Fin 5000) (P : Fin 50000), P.val = T * 5000 + p.val → k' (ix2 p (0 : Fin 1)) = K' (ix2 P (0 : Fin 1)))
    (hW : W = Wm) (hb : b = bv)
    (y : S5000x128.Idx) (i : S50000x128.Idx) (h0 : (i 0).val = T * 5000 + (y 0).val) (h1 : (i 1).val = (y 1).val) :
    k1_pay2 (F := Ideal) a k W b k' y = Cert.GraphNet.scaleRows (Cert.GraphNet.conv A Wm bv K) K' i := by
  subst hW hb
  obtain ⟨p, q, rfl⟩ : ∃ (p : Fin 5000) (q : Fin 128), y = ix2 p q := ⟨y 0, y 1, eq_ix2 y⟩
  obtain ⟨P, Q, rfl⟩ : ∃ (P : Fin 50000) (Q : Fin 128), i = ix2 P Q := ⟨i 0, i 1, eq_ix2 i⟩
  have hP : P.val = T * 5000 + p.val := h0
  obtain rfl : Q = q := Fin.ext h1
  rw [scaled_pay_apply, Cert.GraphNet.ConvAt.scaled_conv_apply, hk' p P hP]
  refine congrArg (fun z => max (z + b (ix1 Q)) 0 * K' (ix2 P (0 : Fin 1))) (Finset.sum_congr rfl fun j _ => ?_)
  rw [ha p P j hP, hk p P hP]

end Cert.Regions.Conv

end
-- ==== Proof.ConvRegion1.lean ====
/-
  The first graph convolution as one array.

  The region runs its body at 10 grid points; point t reads rows 5000·t … 5000·t + 4999 of the aggregated features
  and of the two degree columns, the whole weights and bias, and writes the same rows of its two results. Read at a
  symbolic point, what it writes back to the second result is those rows of the whole-array map
    scaleRows (conv A W b K) K';
  every row r lies in the block of point r / 5000, so after the last point the array is that map.
-/
import proofs.«100711_j8830452760706_2_alg».proof.Proof.ConvPoint
import proofs.«100711_j8830452760706_2_alg».proof.Proof.Gen.KernelIdeal.Frame
import Idealize.ShloMosaic.Lib.Pipeline.Value

noncomputable section

namespace Cert.Regions

open Cert.KernelIdeal Cert.KernelIdeal.Gen Idealize.ShloMosaic Idealize.ShloMosaic.TcCoe Idealize.SL.Sem
open Idealize.ShloMosaic.Pipeline (Dat Cfg Window)
open Idealize.ShloMosaic.ValueIdx
open Cert.Regions.Conv

variable (V : (c : Dev nD) → (b : Ref sig .tc) → Buf (Elt Ideal) ((c : Thread nD τ).loc b))

theorem zeros1_2 : (![0, 0] : Fin 2 → Nat) = fun _ => 0 := funext fun a => by fin_cases a <;> rfl
theorem zeros1_1 : (![0] : Fin 1 → Nat) = fun _ => 0 := funext fun a => by fin_cases a; rfl

/-- The printed index maps over the grid: the row-blocked windows sit at block (t, 0), the whole-array windows at
    block 0. -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0
    ∧ win1_6.index t (0 : Fin 2) = t.val ∧ win1_6.index t (1 : Fin 2) = 0 :=
  (by decide +kernel : ∀ t : Fin grid1.N, _)

/-- What point t writes back to the second result is rows 5000·t … of the scaled convolution of the arrays as the
    region finds them. -/
theorem flushed1_scaled (c : Dev nD) (t : Fin cfg1.N) :
    (dat1 (F := Ideal) V c).flushed 6 t = ((cfg1.win 6).blk t).view.read (Elt Ideal)
      (Cert.GraphNet.scaleRows (Cert.GraphNet.conv (V c main_v27) (V c main_v29) (V c main_v31) (V c main_v14)) (V c main_v11)) := by
  show (cfg1.win 6).cut (grid1.coords t) ((dat1 V c).after 6 t) = _
  rw [after1_6]
  unfold out1_6
  rw [View.canon_unit_zero zeros1_2]
  simp only [View.ld_unit_zero (S := S5000x128) zeros1_2, View.ld_unit_zero (S := S5000x1) zeros1_2,
    View.ld_unit_zero (S := S128x128) zeros1_2, View.ld_unit_zero (S := S128) zeros1_1]
  obtain ⟨e00, e01, e10, e11, e20, e30, e31, e40, e41, e60, e61⟩ := index1 t
  funext y
  show k1_pay2 (F := Ideal) (iblk1 V c 0 t) (iblk1 V c 3 t) (iblk1 V c 1 t) (iblk1 V c 2 t) (iblk1 V c 4 t) y
    = Cert.GraphNet.scaleRows (Cert.GraphNet.conv (V c main_v27) (V c main_v29) (V c main_v31) (V c main_v14)) (V c main_v11)
        (((cfg1.win 6).blk t).view.emb y)
  refine scaled_point (V c main_v27) (V c main_v29) (V c main_v31) (V c main_v14) (V c main_v11) _ _ _ _ _ t.val
    (fun p P j hP => ?_) (fun p P hP => ?_) (fun p P hP => ?_) (funext fun x => ?_) (funext fun x => ?_) y _ ?_ ?_
  · show V c main_v27 (((cfg1.win 0).blk t).view.emb (ix2 p j)) = V c main_v27 (ix2 P j)
    refine congrArg (V c main_v27) (funext fun a => Fin.ext ?_)
    match a with
    | ⟨0, _⟩ => show win1_0.index t (0 : Fin 2) * 5000 + 1 * p.val = P.val; rw [e00, hP]; omega
    | ⟨1, _⟩ => show win1_0.index t (1 : Fin 2) * 128 + 1 * j.val = j.val; rw [e01]; omega
  · show V c main_v14 (((cfg1.win 3).blk t).view.emb (ix2 p (0 : Fin 1))) = V c main_v14 (ix2 P (0 : Fin 1))
    refine congrArg (V c main_v14) (funext fun a => Fin.ext ?_)
    match a with
    | ⟨0, _⟩ => show win1_3.index t (0 : Fin 2) * 5000 + 1 * p.val = P.val; rw [e30, hP]; omega
    | ⟨1, _⟩ => show win1_3.index t (1 : Fin 2) * 1 + 1 * 0 = 0; rw [e31]
  · show V c main_v11 (((cfg1.win 4).blk t).view.emb (ix2 p (0 : Fin 1))) = V c main_v11 (ix2 P (0 : Fin 1))
    refine congrArg (V c main_v11) (funext fun a => Fin.ext ?_)
    match a with
    | ⟨0, _⟩ => show win1_4.index t (0 : Fin 2) * 5000 + 1 * p.val = P.val; rw [e40, hP]; omega
    | ⟨1, _⟩ => show win1_4.index t (1 : Fin 2) * 1 + 1 * 0 = 0; rw [e41]
  · show V c main_v29 (((cfg1.win 1).blk t).view.emb x) = V c main_v29 x
    refine congrArg (V c main_v29) (funext fun a => Fin.ext ?_)
    match a with
    | ⟨0, _⟩ => show win1_1.index t (0 : Fin 2) * 128 + 1 * (x 0).val = (x 0).val; rw [e10]; omega
    | ⟨1, _⟩ => show win1_1.index t (1 : Fin 2) * 128 + 1 * (x 1).val = (x 1).val; rw [e11]; omega
  · show V c main_v31 (((cfg1.win 2).blk t).view.emb x) = V c main_v31 x
    refine congrArg (V c main_v31) (funext fun a => Fin.ext ?_)
    match a with
    | ⟨0, _⟩ => show win1_2.index t (0 : Fin 1) * 128 + 1 * (x 0).val = (x 0).val; rw [e20]; omega
  · show win1_6.index t (0 : Fin 2) * 5000 + 1 * (y 0).val = t.val * 5000 + (y 0).val; rw [e60]; omega
  · show win1_6.index t (1 : Fin 2) * 128 + 1 * (y 1).val = (y 1).val; rw [e61]; omega

/-- An index of the result is in point t's block iff each coordinate is in the block's range on its axis. -/
theorem mem_rows1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v32_1).slice (win1_6.rect t)).set ↔ _
  rw [View.set_slice_whole, Rect.mem_set_unit]
  exact Iff.rfl

/-- Row r lies in the block of point r / 5000. -/
theorem rows1_covered (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have ht : t.val = (i 0).val / 5000 := rfl
  obtain ⟨e00, e01, e10, e11, e20, e30, e31, e40, e41, e60, e61⟩ := index1 t
  refine ⟨t, flush1_6 t, ?_⟩
  rw [mem_rows1]
  intro a
  match a with
  | ⟨0, _⟩ => show win1_6.index t (0 : Fin 2) * 5000 ≤ (i 0).val ∧ (i 0).val < win1_6.index t (0 : Fin 2) * 5000 + 5000; rw [e60, ht]; omega
  | ⟨1, _⟩ => show win1_6.index t (1 : Fin 2) * 128 ≤ (i 1).val ∧ (i 1).val < win1_6.index t (1 : Fin 2) * 128 + 128; rw [e61]; omega

/-- After the region the second result is the scaled convolution of the arrays the region found. -/
theorem conv1_array (c : Dev nD) :
    (dat1 (F := Ideal) V c).arrAt 6 cfg1.N
      = Cert.GraphNet.scaleRows (Cert.GraphNet.conv (V c main_v27) (V c main_v29) (V c main_v31) (V c main_v14)) (V c main_v11) :=
  (dat1 V c).arrAt_eq_of_cover 6 _ (fun t _ => flushed1_scaled V c t) (rows1_covered)

end Cert.Regions

end
-- ==== Proof.ConvRegion2.lean ====
/-
  The second graph convolution as one array.

  The region runs its body at 10 grid points; point t reads rows 5000·t … 5000·t + 4999 of the aggregated features
  and of the two degree columns, the whole weights and bias, and writes the same rows of its two results. Read at a
  symbolic point, what it writes back to the second result is those rows of the whole-array map
    scaleRows (conv A W b K) K';
  every row r lies in the block of point r / 5000, so after the last point the array is that map.
-/
import proofs.«100711_j8830452760706_2_alg».proof.Proof.ConvPoint
import proofs.«100711_j8830452760706_2_alg».proof.Proof.Gen.KernelIdeal.Frame
import Idealize.ShloMosaic.Lib.Pipeline.Value

noncomputable section

namespace Cert.Regions

open Cert.KernelIdeal Cert.KernelIdeal.Gen Idealize.ShloMosaic Idealize.ShloMosaic.TcCoe Idealize.SL.Sem
open Idealize.ShloMosaic.Pipeline (Dat Cfg Window)
open Idealize.ShloMosaic.ValueIdx
open Cert.Regions.Conv

variable (V : (c : Dev nD) → (b : Ref sig .tc) → Buf (Elt Ideal) ((c : Thread nD τ).loc b))

theorem zeros2_2 : (![0, 0] : Fin 2 → Nat) = fun _ => 0 := funext fun a => by fin_cases a <;> rfl
theorem zeros2_1 : (![0] : Fin 1 → Nat) = fun _ => 0 := funext fun a => by fin_cases a; rfl

/-- The printed index maps over the grid: the row-blocked windows sit at block (t, 0), the whole-array windows at
    block 0. -/
theorem index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0
    ∧ win2_4.index t (0 : Fin 2) = t.val ∧ win2_4.index t (1 : Fin 2) = 0
    ∧ win2_6.index t (0 : Fin 2) = t.val ∧ win2_6.index t (1 : Fin 2) = 0 :=
  (by decide +kernel : ∀ t : Fin grid2.N, _)

/-- What point t writes back to the second result is rows 5000·t … of the scaled convolution of the arrays as the
    region finds them. -/
theorem flushed2_scaled (c : Dev nD) (t : Fin cfg2.N) :
    (dat2 (F := Ideal) V c).flushed 6 t = ((cfg2.win 6).blk t).view.read (Elt Ideal)
      (Cert.GraphNet.scaleRows (Cert.GraphNet.conv (V c main_v44) (V c main_v46) (V c main_v48) (V c main_v14)) (V c main_v11)) := by
  show (cfg2.win 6).cut (grid2.coords t) ((dat2 V c).after 6 t) = _
  rw [after2_6]
  unfold out2_6
  rw [View.canon_unit_zero zeros2_2]
  simp only [View.ld_unit_zero (S := S5000x128) zeros2_2, View.ld_unit_zero (S := S5000x1) zeros2_2,
    View.ld_unit_zero (S := S128x128) zeros2_2, View.ld_unit_zero (S := S128) zeros2_1]
  obtain ⟨e00, e01, e10, e11, e20, e30, e31, e40, e41, e60, e61⟩ := index2 t
  funext y
  show k1_pay2 (F := Ideal) (iblk2 V c 0 t) (iblk2 V c 3 t) (iblk2 V c 1 t) (iblk2 V c 2 t) (iblk2 V c 4 t) y
    = Cert.GraphNet.scaleRows (Cert.GraphNet.conv (V c main_v44) (V c main_v46) (V c main_v48) (V c main_v14)) (V c main_v11)
        (((cfg2.win 6).blk t).view.emb y)
  refine scaled_point (V c main_v44) (V c main_v46) (V c main_v48) (V c main_v14) (V c main_v11) _ _ _ _ _ t.val
    (fun p P j hP => ?_) (fun p P hP => ?_) (fun p P hP => ?_) (funext fun x => ?_) (funext fun x => ?_) y _ ?_ ?_
  · show V c main_v44 (((cfg2.win 0).blk t).view.emb (ix2 p j)) = V c main_v44 (ix2 P j)
    refine congrArg (V c main_v44) (funext fun a => Fin.ext ?_)
    match a with
    | ⟨0, _⟩ => show win2_0.index t (0 : Fin 2) * 5000 + 1 * p.val = P.val; rw [e00, hP]; omega
    | ⟨1, _⟩ => show win2_0.index t (1 : Fin 2) * 128 + 1 * j.val = j.val; rw [e01]; omega
  · show V c main_v14 (((cfg2.win 3).blk t).view.emb (ix2 p (0 : Fin 1))) = V c main_v14 (ix2 P (0 : Fin 1))
    refine congrArg (V c main_v14) (funext fun a => Fin.ext ?_)
    match a with
    | ⟨0, _⟩ => show win2_3.index t (0 : Fin 2) * 5000 + 1 * p.val = P.val; rw [e30, hP]; omega
    | ⟨1, _⟩ => show win2_3.index t (1 : Fin 2) * 1 + 1 * 0 = 0; rw [e31]
  · show V c main_v11 (((cfg2.win 4).blk t).view.emb (ix2 p (0 : Fin 1))) = V c main_v11 (ix2 P (0 : Fin 1))
    refine congrArg (V c main_v11) (funext fun a => Fin.ext ?_)
    match a with
    | ⟨0, _⟩ => show win2_4.index t (0 : Fin 2) * 5000 + 1 * p.val = P.val; rw [e40, hP]; omega
    | ⟨1, _⟩ => show win2_4.index t (1 : Fin 2) * 1 + 1 * 0 = 0; rw [e41]
  · show V c main_v46 (((cfg2.win 1).blk t).view.emb x) = V c main_v46 x
    refine congrArg (V c main_v46) (funext fun a => Fin.ext ?_)
    match a with
    | ⟨0, _⟩ => show win2_1.index t (0 : Fin 2) * 128 + 1 * (x 0).val = (x 0).val; rw [e10]; omega
    | ⟨1, _⟩ => show win2_1.index t (1 : Fin 2) * 128 + 1 * (x 1).val = (x 1).val; rw [e11]; omega
  · show V c main_v48 (((cfg2.win 2).blk t).view.emb x) = V c main_v48 x
    refine congrArg (V c main_v48) (funext fun a => Fin.ext ?_)
    match a with
    | ⟨0, _⟩ => show win2_2.index t (0 : Fin 1) * 128 + 1 * (x 0).val = (x 0).val; rw [e20]; omega
  · show win2_6.index t (0 : Fin 2) * 5000 + 1 * (y 0).val = t.val * 5000 + (y 0).val; rw [e60]; omega
  · show win2_6.index t (1 : Fin 2) * 128 + 1 * (y 1).val = (y 1).val; rw [e61]; omega

/-- An index of the result is in point t's block iff each coordinate is in the block's range on its axis. -/
theorem mem_rows2 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v49_1).slice (win2_6.rect t)).set ↔ _
  rw [View.set_slice_whole, Rect.mem_set_unit]
  exact Iff.rfl

/-- Row r lies in the block of point r / 5000. -/
theorem rows2_covered (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  have ht : t.val = (i 0).val / 5000 := rfl
  obtain ⟨e00, e01, e10, e11, e20, e30, e31, e40, e41, e60, e61⟩ := index2 t
  refine ⟨t, flush2_6 t, ?_⟩
  rw [mem_rows2]
  intro a
  match a with
  | ⟨0, _⟩ => show win2_6.index t (0 : Fin 2) * 5000 ≤ (i 0).val ∧ (i 0).val < win2_6.index t (0 : Fin 2) * 5000 + 5000; rw [e60, ht]; omega
  | ⟨1, _⟩ => show win2_6.index t (1 : Fin 2) * 128 ≤ (i 1).val ∧ (i 1).val < win2_6.index t (1 : Fin 2) * 128 + 128; rw [e61]; omega

/-- After the region the second result is the scaled convolution of the arrays the region found. -/
theorem conv2_array (c : Dev nD) :
    (dat2 (F := Ideal) V c).arrAt 6 cfg2.N
      = Cert.GraphNet.scaleRows (Cert.GraphNet.conv (V c main_v44) (V c main_v46) (V c main_v48) (V c main_v14)) (V c main_v11) :=
  (dat2 V c).arrAt_eq_of_cover 6 _ (fun t _ => flushed2_scaled V c t) (rows2_covered)

end Cert.Regions

end
-- ==== Proof.ConvRegion3.lean ====
/-
  The last graph convolution as one array.

  The region runs its body at 10 grid points; point t reads rows 5000·t … 5000·t + 4999 of the aggregated features
  and of the in-degree column, the whole weights and bias, and writes the same rows of its result. Read at a symbolic
  point, what it writes back is those rows of the whole-array map conv A W b K; every row r lies in the block of
  point r / 5000, so after the last point the array is that map.
-/
import proofs.«100711_j8830452760706_2_alg».proof.Proof.ConvPoint
import proofs.«100711_j8830452760706_2_alg».proof.Proof.Gen.KernelIdeal.Frame
import Idealize.ShloMosaic.Lib.Pipeline.Value

noncomputable section

namespace Cert.Regions

open Cert.KernelIdeal Cert.KernelIdeal.Gen Idealize.ShloMosaic Idealize.ShloMosaic.TcCoe Idealize.SL.Sem
open Idealize.ShloMosaic.Pipeline (Dat Cfg Window)
open Idealize.ShloMosaic.ValueIdx
open Cert.Regions.Conv

variable (V : (c : Dev nD) → (b : Ref sig .tc) → Buf (Elt Ideal) ((c : Thread nD τ).loc b))

theorem zeros3_2 : (![0, 0] : Fin 2 → Nat) = fun _ => 0 := funext fun a => by fin_cases a <;> rfl
theorem zeros3_1 : (![0] : Fin 1 → Nat) = fun _ => 0 := funext fun a => by fin_cases a; rfl

/-- The printed index maps over the grid: the row-blocked windows sit at block (t, 0), the whole-array windows at
    block 0. -/
theorem index3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- What point t writes back is rows 5000·t … of the convolution of the arrays as the region finds them. -/
theorem flushed3_conv (c : Dev nD) (t : Fin cfg3.N) :
    (dat3 (F := Ideal) V c).flushed 4 t = ((cfg3.win 4).blk t).view.read (Elt Ideal)
      (Cert.GraphNet.conv (V c main_v61) (V c main_v63) (V c main_v65) (V c main_v14)) := by
  show (cfg3.win 4).cut (grid3.coords t) ((dat3 V c).after 4 t) = _
  rw [after3_4]
  unfold out3_4
  rw [View.canon_unit_zero zeros3_2]
  simp only [View.ld_unit_zero (S := S5000x128) zeros3_2, View.ld_unit_zero (S := S5000x1) zeros3_2,
    View.ld_unit_zero (S := S128x128) zeros3_2, View.ld_unit_zero (S := S128) zeros3_1]
  obtain ⟨e00, e01, e10, e11, e20, e30, e31, e40, e41⟩ := index3 t
  funext y
  show k1_pay1 (F := Ideal) (iblk3 V c 0 t) (iblk3 V c 3 t) (iblk3 V c 1 t) (iblk3 V c 2 t) y
    = Cert.GraphNet.conv (V c main_v61) (V c main_v63) (V c main_v65) (V c main_v14)
        (((cfg3.win 4).blk t).view.emb y)
  refine conv_point (V c main_v61) (V c main_v63) (V c main_v65) (V c main_v14) _ _ _ _ t.val
    (fun p P j hP => ?_) (fun p P hP => ?_) (funext fun x => ?_) (funext fun x => ?_) y _ ?_ ?_
  · show V c main_v61 (((cfg3.win 0).blk t).view.emb (ix2 p j)) = V c main_v61 (ix2 P j)
    refine congrArg (V c main_v61) (funext fun a => Fin.ext ?_)
    match a with
    | ⟨0, _⟩ => show win3_0.index t (0 : Fin 2) * 5000 + 1 * p.val = P.val; rw [e00, hP]; omega
    | ⟨1, _⟩ => show win3_0.index t (1 : Fin 2) * 128 + 1 * j.val = j.val; rw [e01]; omega
  · show V c main_v14 (((cfg3.win 3).blk t).view.emb (ix2 p (0 : Fin 1))) = V c main_v14 (ix2 P (0 : Fin 1))
    refine congrArg (V c main_v14) (funext fun a => Fin.ext ?_)
    match a with
    | ⟨0, _⟩ => show win3_3.index t (0 : Fin 2) * 5000 + 1 * p.val = P.val; rw [e30, hP]; omega
    | ⟨1, _⟩ => show win3_3.index t (1 : Fin 2) * 1 + 1 * 0 = 0; rw [e31]
  · show V c main_v63 (((cfg3.win 1).blk t).view.emb x) = V c main_v63 x
    refine congrArg (V c main_v63) (funext fun a => Fin.ext ?_)
    match a with
    | ⟨0, _⟩ => show win3_1.index t (0 : Fin 2) * 128 + 1 * (x 0).val = (x 0).val; rw [e10]; omega
    | ⟨1, _⟩ => show win3_1.index t (1 : Fin 2) * 128 + 1 * (x 1).val = (x 1).val; rw [e11]; omega
  · show V c main_v65 (((cfg3.win 2).blk t).view.emb x) = V c main_v65 x
    refine congrArg (V c main_v65) (funext fun a => Fin.ext ?_)
    match a with
    | ⟨0, _⟩ => show win3_2.index t (0 : Fin 1) * 128 + 1 * (x 0).val = (x 0).val; rw [e20]; omega
  · show win3_4.index t (0 : Fin 2) * 5000 + 1 * (y 0).val = t.val * 5000 + (y 0).val; rw [e40]; omega
  · show win3_4.index t (1 : Fin 2) * 128 + 1 * (y 1).val = (y 1).val; rw [e41]; omega

/-- An index of the result is in point t's block iff each coordinate is in the block's range on its axis. -/
theorem mem_rows3 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v66).slice (win3_4.rect t)).set ↔ _
  rw [View.set_slice_whole, Rect.mem_set_unit]
  exact Iff.rfl

/-- Row r lies in the block of point r / 5000. -/
theorem rows3_covered (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  have ht : t.val = (i 0).val / 5000 := rfl
  obtain ⟨e00, e01, e10, e11, e20, e30, e31, e40, e41⟩ := index3 t
  refine ⟨t, flush3_4 t, ?_⟩
  rw [mem_rows3]
  intro a
  match a with
  | ⟨0, _⟩ => show win3_4.index t (0 : Fin 2) * 5000 ≤ (i 0).val ∧ (i 0).val < win3_4.index t (0 : Fin 2) * 5000 + 5000; rw [e40, ht]; omega
  | ⟨1, _⟩ => show win3_4.index t (1 : Fin 2) * 128 ≤ (i 1).val ∧ (i 1).val < win3_4.index t (1 : Fin 2) * 128 + 128; rw [e41]; omega

/-- After the region the result is the convolution of the arrays the region found. -/
theorem conv3_array (c : Dev nD) :
    (dat3 (F := Ideal) V c).arrAt 4 cfg3.N
      = Cert.GraphNet.conv (V c main_v61) (V c main_v63) (V c main_v65) (V c main_v14) :=
  (dat3 V c).arrAt_eq_of_cover 4 _ (fun t _ => flushed3_conv V c t) (rows3_covered)

end Cert.Regions

end
-- ==== Proof.FoldChain.lean ====
/-
  The fold of buffer contents through the kernel program, from the first region's entry to the last region's entry.

  Write ns, nd for the two degree columns. The first region leaves x₀ = (embedded features) scaled by ns; each host
  stretch aggregates the last scaled features and cuts the layer's weights; each middle region leaves
  xₗ = conv (aggregate xₗ₋₁) Wₗ bₗ nd, scaled by ns; the last convolution leaves h₃ unscaled. A region writes only
  its own output arrays and a host stretch only its own results, so the degree columns and the argument arrays are
  carried along unchanged.
-/
import proofs.«100711_j8830452760706_2_alg».proof.Proof.FoldDegrees
import proofs.«100711_j8830452760706_2_alg».proof.Proof.FoldStretch1
import proofs.«100711_j8830452760706_2_alg».proof.Proof.FoldStretch2
import proofs.«100711_j8830452760706_2_alg».proof.Proof.FoldStretch3
import proofs.«100711_j8830452760706_2_alg».proof.Proof.EmbedRegion
import proofs.«100711_j8830452760706_2_alg».proof.Proof.ConvRegion1
import proofs.«100711_j8830452760706_2_alg».proof.Proof.ConvRegion2
import proofs.«100711_j8830452760706_2_alg».proof.Proof.ConvRegion3

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The embedded features scaled by the out-degree column. -/
def x0 : Cert.GraphNet.Feat :=
  Cert.GraphNet.scaleRows (Cert.GraphNet.embed (m ((c : Thread nD τ).loc main_arg0)) (m ((c : Thread nD τ).loc main_arg3)) (m ((c : Thread nD τ).loc main_arg4))) (Cert.GraphNet.degNorm (m ((c : Thread nD τ).loc main_arg1)))
/-- The first convolution's output scaled by the out-degree column. -/
def x1 : Cert.GraphNet.Feat :=
  Cert.GraphNet.scaleRows (Cert.GraphNet.conv (Cert.GraphNet.aggregate (m ((c : Thread nD τ).loc main_arg1)) (m ((c : Thread nD τ).loc main_arg2)) (x0 m c)) (Cert.GraphNet.weight0 (m ((c : Thread nD τ).loc main_arg5))) (Cert.GraphNet.bias0 (m ((c : Thread nD τ).loc main_arg6))) (Cert.GraphNet.degNorm (m ((c : Thread nD τ).loc main_arg2)))) (Cert.GraphNet.degNorm (m ((c : Thread nD τ).loc main_arg1)))
/-- The second convolution's output scaled by the out-degree column. -/
def x2 : Cert.GraphNet.Feat :=
  Cert.GraphNet.scaleRows (Cert.GraphNet.conv (Cert.GraphNet.aggregate (m ((c : Thread nD τ).loc main_arg1)) (m ((c : Thread nD τ).loc main_arg2)) (x1 m c)) (Cert.GraphNet.weight1 (m ((c : Thread nD τ).loc main_arg5))) (Cert.GraphNet.bias1 (m ((c : Thread nD τ).loc main_arg6))) (Cert.GraphNet.degNorm (m ((c : Thread nD τ).loc main_arg2)))) (Cert.GraphNet.degNorm (m ((c : Thread nD τ).loc main_arg1)))
/-- The third convolution's output. -/
def h3 : Cert.GraphNet.Feat :=
  Cert.GraphNet.conv (Cert.GraphNet.aggregate (m ((c : Thread nD τ).loc main_arg1)) (m ((c : Thread nD τ).loc main_arg2)) (x2 m c)) (Cert.GraphNet.weight2 (m ((c : Thread nD τ).loc main_arg5))) (Cert.GraphNet.bias2 (m ((c : Thread nD τ).loc main_arg6))) (Cert.GraphNet.degNorm (m ((c : Thread nD τ).loc main_arg2)))

/-! ## Region 0 -/

theorem W6_x : W6 m ρ c (Proc.devRef .tc main_v15_1) = x0 m c := by
  refine (W6_arr m ρ c 5).trans ((Cert.Regions.embed_array (V5 m ρ) c).trans ?_)
  show Cert.GraphNet.scaleRows (Cert.GraphNet.embed (W5 m ρ c (Proc.devRef .tc main_arg0)) (W5 m ρ c (Proc.devRef .tc main_arg3)) (W5 m ρ c (Proc.devRef .tc main_arg4))) (W5 m ρ c (Proc.devRef .tc main_v11)) = _
  rw [W5_arg0, W5_arg3, W5_arg4, W5_v11]; rfl
theorem W6_v11 : W6 m ρ c (Proc.devRef .tc main_v11) = Cert.GraphNet.degNorm (m ((c : Thread nD τ).loc main_arg1)) :=
  ((W6_arr m ρ c 3).trans (((dat0 (V5 m ρ) c).arrAt_in 3 rfl _).trans (A_eq0 (V5 m ρ) c 3))).trans (W5_v11 m ρ c)
theorem W6_v14 : W6 m ρ c (Proc.devRef .tc main_v14) = Cert.GraphNet.degNorm (m ((c : Thread nD τ).loc main_arg2)) := (W6_of_ne m ρ c main_v14 (by decide)).trans (W5_v14 m ρ c)
theorem W6_arg1 : W6 m ρ c (Proc.devRef .tc main_arg1) = (m ((c : Thread nD τ).loc main_arg1)) := (W6_of_ne m ρ c main_arg1 (by decide)).trans (W5_arg1 m ρ c)
theorem W6_arg2 : W6 m ρ c (Proc.devRef .tc main_arg2) = (m ((c : Thread nD τ).loc main_arg2)) := (W6_of_ne m ρ c main_arg2 (by decide)).trans (W5_arg2 m ρ c)
theorem W6_arg5 : W6 m ρ c (Proc.devRef .tc main_arg5) = (m ((c : Thread nD τ).loc main_arg5)) := (W6_of_ne m ρ c main_arg5 (by decide)).trans (W5_arg5 m ρ c)
theorem W6_arg6 : W6 m ρ c (Proc.devRef .tc main_arg6) = (m ((c : Thread nD τ).loc main_arg6)) := (W6_of_ne m ρ c main_arg6 (by decide)).trans (W5_arg6 m ρ c)
theorem W6_arg7 : W6 m ρ c (Proc.devRef .tc main_arg7) = (m ((c : Thread nD τ).loc main_arg7)) := (W6_of_ne m ρ c main_arg7 (by decide)).trans (W5_arg7 m ρ c)
theorem W6_arg8 : W6 m ρ c (Proc.devRef .tc main_arg8) = (m ((c : Thread nD τ).loc main_arg8)) := (W6_of_ne m ρ c main_arg8 (by decide)).trans (W5_arg8 m ρ c)
theorem W6_arg9 : W6 m ρ c (Proc.devRef .tc main_arg9) = (m ((c : Thread nD τ).loc main_arg9)) := (W6_of_ne m ρ c main_arg9 (by decide)).trans (W5_arg9 m ρ c)
theorem W6_arg10 : W6 m ρ c (Proc.devRef .tc main_arg10) = (m ((c : Thread nD τ).loc main_arg10)) := (W6_of_ne m ρ c main_arg10 (by decide)).trans (W5_arg10 m ρ c)

/-! ## Host stretch 1 -/

theorem W7_agg : W7 m ρ c (Proc.devRef .tc main_v27) = Cert.GraphNet.aggregate (m ((c : Thread nD τ).loc main_arg1)) (m ((c : Thread nD τ).loc main_arg2)) (x0 m c) := by
  refine (ops1_agg (W6 m ρ c)).trans ?_
  rw [W6_arg1, W6_arg2, W6_x]
theorem W7_weight : W7 m ρ c (Proc.devRef .tc main_v29) = Cert.GraphNet.weight0 (m ((c : Thread nD τ).loc main_arg5)) := by
  refine (ops1_weight (W6 m ρ c)).trans ?_
  rw [W6_arg5]
theorem W7_bias : W7 m ρ c (Proc.devRef .tc main_v31) = Cert.GraphNet.bias0 (m ((c : Thread nD τ).loc main_arg6)) := by
  refine (ops1_bias (W6 m ρ c)).trans ?_
  rw [W6_arg6]
theorem W7_v11 : W7 m ρ c (Proc.devRef .tc main_v11) = Cert.GraphNet.degNorm (m ((c : Thread nD τ).loc main_arg1)) := (ops1_keep_main_v11 (W6 m ρ c)).trans (W6_v11 m ρ c)
theorem W7_v14 : W7 m ρ c (Proc.devRef .tc main_v14) = Cert.GraphNet.degNorm (m ((c : Thread nD τ).loc main_arg2)) := (ops1_keep_main_v14 (W6 m ρ c)).trans (W6_v14 m ρ c)
theorem W7_arg1 : W7 m ρ c (Proc.devRef .tc main_arg1) = (m ((c : Thread nD τ).loc main_arg1)) := (ops1_keep_main_arg1 (W6 m ρ c)).trans (W6_arg1 m ρ c)
theorem W7_arg2 : W7 m ρ c (Proc.devRef .tc main_arg2) = (m ((c : Thread nD τ).loc main_arg2)) := (ops1_keep_main_arg2 (W6 m ρ c)).trans (W6_arg2 m ρ c)
theorem W7_arg5 : W7 m ρ c (Proc.devRef .tc main_arg5) = (m ((c : Thread nD τ).loc main_arg5)) := (ops1_keep_main_arg5 (W6 m ρ c)).trans (W6_arg5 m ρ c)
theorem W7_arg6 : W7 m ρ c (Proc.devRef .tc main_arg6) = (m ((c : Thread nD τ).loc main_arg6)) := (ops1_keep_main_arg6 (W6 m ρ c)).trans (W6_arg6 m ρ c)
theorem W7_arg7 : W7 m ρ c (Proc.devRef .tc main_arg7) = (m ((c : Thread nD τ).loc main_arg7)) := (ops1_keep_main_arg7 (W6 m ρ c)).trans (W6_arg7 m ρ c)
theorem W7_arg8 : W7 m ρ c (Proc.devRef .tc main_arg8) = (m ((c : Thread nD τ).loc main_arg8)) := (ops1_keep_main_arg8 (W6 m ρ c)).trans (W6_arg8 m ρ c)
theorem W7_arg9 : W7 m ρ c (Proc.devRef .tc main_arg9) = (m ((c : Thread nD τ).loc main_arg9)) := (ops1_keep_main_arg9 (W6 m ρ c)).trans (W6_arg9 m ρ c)
theorem W7_arg10 : W7 m ρ c (Proc.devRef .tc main_arg10) = (m ((c : Thread nD τ).loc main_arg10)) := (ops1_keep_main_arg10 (W6 m ρ c)).trans (W6_arg10 m ρ c)

/-! ## Region 1 -/

theorem W8_x : W8 m ρ c (Proc.devRef .tc main_v32_1) = x1 m c := by
  refine (W8_arr m ρ c 6).trans ((Cert.Regions.conv1_array (V7 m ρ) c).trans ?_)
  show Cert.GraphNet.scaleRows (Cert.GraphNet.conv (W7 m ρ c (Proc.devRef .tc main_v27)) (W7 m ρ c (Proc.devRef .tc main_v29)) (W7 m ρ c (Proc.devRef .tc main_v31)) (W7 m ρ c (Proc.devRef .tc main_v14))) (W7 m ρ c (Proc.devRef .tc main_v11)) = _
  rw [W7_agg, W7_weight, W7_bias, W7_v14, W7_v11]; rfl
theorem W8_v11 : W8 m ρ c (Proc.devRef .tc main_v11) = Cert.GraphNet.degNorm (m ((c : Thread nD τ).loc main_arg1)) :=
  ((W8_arr m ρ c 4).trans (((dat1 (V7 m ρ) c).arrAt_in 4 rfl _).trans (A_eq1 (V7 m ρ) c 4))).trans (W7_v11 m ρ c)
theorem W8_v14 : W8 m ρ c (Proc.devRef .tc main_v14) = Cert.GraphNet.degNorm (m ((c : Thread nD τ).loc main_arg2)) :=
  ((W8_arr m ρ c 3).trans (((dat1 (V7 m ρ) c).arrAt_in 3 rfl _).trans (A_eq1 (V7 m ρ) c 3))).trans (W7_v14 m ρ c)
theorem W8_arg1 : W8 m ρ c (Proc.devRef .tc main_arg1) = (m ((c : Thread nD τ).loc main_arg1)) := (W8_of_ne m ρ c main_arg1 (by decide)).trans (W7_arg1 m ρ c)
theorem W8_arg2 : W8 m ρ c (Proc.devRef .tc main_arg2) = (m ((c : Thread nD τ).loc main_arg2)) := (W8_of_ne m ρ c main_arg2 (by decide)).trans (W7_arg2 m ρ c)
theorem W8_arg5 : W8 m ρ c (Proc.devRef .tc main_arg5) = (m ((c : Thread nD τ).loc main_arg5)) := (W8_of_ne m ρ c main_arg5 (by decide)).trans (W7_arg5 m ρ c)
theorem W8_arg6 : W8 m ρ c (Proc.devRef .tc main_arg6) = (m ((c : Thread nD τ).loc main_arg6)) := (W8_of_ne m ρ c main_arg6 (by decide)).trans (W7_arg6 m ρ c)
theorem W8_arg7 : W8 m ρ c (Proc.devRef .tc main_arg7) = (m ((c : Thread nD τ).loc main_arg7)) := (W8_of_ne m ρ c main_arg7 (by decide)).trans (W7_arg7 m ρ c)
theorem W8_arg8 : W8 m ρ c (Proc.devRef .tc main_arg8) = (m ((c : Thread nD τ).loc main_arg8)) := (W8_of_ne m ρ c main_arg8 (by decide)).trans (W7_arg8 m ρ c)
theorem W8_arg9 : W8 m ρ c (Proc.devRef .tc main_arg9) = (m ((c : Thread nD τ).loc main_arg9)) := (W8_of_ne m ρ c main_arg9 (by decide)).trans (W7_arg9 m ρ c)
theorem W8_arg10 : W8 m ρ c (Proc.devRef .tc main_arg10) = (m ((c : Thread nD τ).loc main_arg10)) := (W8_of_ne m ρ c main_arg10 (by decide)).trans (W7_arg10 m ρ c)

/-! ## Host stretch 2 -/

theorem W9_agg : W9 m ρ c (Proc.devRef .tc main_v44) = Cert.GraphNet.aggregate (m ((c : Thread nD τ).loc main_arg1)) (m ((c : Thread nD τ).loc main_arg2)) (x1 m c) := by
  refine (ops2_agg (W8 m ρ c)).trans ?_
  rw [W8_arg1, W8_arg2, W8_x]
theorem W9_weight : W9 m ρ c (Proc.devRef .tc main_v46) = Cert.GraphNet.weight1 (m ((c : Thread nD τ).loc main_arg5)) := by
  refine (ops2_weight (W8 m ρ c)).trans ?_
  rw [W8_arg5]
theorem W9_bias : W9 m ρ c (Proc.devRef .tc main_v48) = Cert.GraphNet.bias1 (m ((c : Thread nD τ).loc main_arg6)) := by
  refine (ops2_bias (W8 m ρ c)).trans ?_
  rw [W8_arg6]
theorem W9_v11 : W9 m ρ c (Proc.devRef .tc main_v11) = Cert.GraphNet.degNorm (m ((c : Thread nD τ).loc main_arg1)) := (ops2_keep_main_v11 (W8 m ρ c)).trans (W8_v11 m ρ c)
theorem W9_v14 : W9 m ρ c (Proc.devRef .tc main_v14) = Cert.GraphNet.degNorm (m ((c : Thread nD τ).loc main_arg2)) := (ops2_keep_main_v14 (W8 m ρ c)).trans (W8_v14 m ρ c)
theorem W9_arg1 : W9 m ρ c (Proc.devRef .tc main_arg1) = (m ((c : Thread nD τ).loc main_arg1)) := (ops2_keep_main_arg1 (W8 m ρ c)).trans (W8_arg1 m ρ c)
theorem W9_arg2 : W9 m ρ c (Proc.devRef .tc main_arg2) = (m ((c : Thread nD τ).loc main_arg2)) := (ops2_keep_main_arg2 (W8 m ρ c)).trans (W8_arg2 m ρ c)
theorem W9_arg5 : W9 m ρ c (Proc.devRef .tc main_arg5) = (m ((c : Thread nD τ).loc main_arg5)) := (ops2_keep_main_arg5 (W8 m ρ c)).trans (W8_arg5 m ρ c)
theorem W9_arg6 : W9 m ρ c (Proc.devRef .tc main_arg6) = (m ((c : Thread nD τ).loc main_arg6)) := (ops2_keep_main_arg6 (W8 m ρ c)).trans (W8_arg6 m ρ c)
theorem W9_arg7 : W9 m ρ c (Proc.devRef .tc main_arg7) = (m ((c : Thread nD τ).loc main_arg7)) := (ops2_keep_main_arg7 (W8 m ρ c)).trans (W8_arg7 m ρ c)
theorem W9_arg8 : W9 m ρ c (Proc.devRef .tc main_arg8) = (m ((c : Thread nD τ).loc main_arg8)) := (ops2_keep_main_arg8 (W8 m ρ c)).trans (W8_arg8 m ρ c)
theorem W9_arg9 : W9 m ρ c (Proc.devRef .tc main_arg9) = (m ((c : Thread nD τ).loc main_arg9)) := (ops2_keep_main_arg9 (W8 m ρ c)).trans (W8_arg9 m ρ c)
theorem W9_arg10 : W9 m ρ c (Proc.devRef .tc main_arg10) = (m ((c : Thread nD τ).loc main_arg10)) := (ops2_keep_main_arg10 (W8 m ρ c)).trans (W8_arg10 m ρ c)

/-! ## Region 2 -/

theorem W10_x : W10 m ρ c (Proc.devRef .tc main_v49_1) = x2 m c := by
  refine (W10_arr m ρ c 6).trans ((Cert.Regions.conv2_array (V9 m ρ) c).trans ?_)
  show Cert.GraphNet.scaleRows (Cert.GraphNet.conv (W9 m ρ c (Proc.devRef .tc main_v44)) (W9 m ρ c (Proc.devRef .tc main_v46)) (W9 m ρ c (Proc.devRef .tc main_v48)) (W9 m ρ c (Proc.devRef .tc main_v14))) (W9 m ρ c (Proc.devRef .tc main_v11)) = _
  rw [W9_agg, W9_weight, W9_bias, W9_v14, W9_v11]; rfl
theorem W10_v14 : W10 m ρ c (Proc.devRef .tc main_v14) = Cert.GraphNet.degNorm (m ((c : Thread nD τ).loc main_arg2)) :=
  ((W10_arr m ρ c 3).trans (((dat2 (V9 m ρ) c).arrAt_in 3 rfl _).trans (A_eq2 (V9 m ρ) c 3))).trans (W9_v14 m ρ c)
theorem W10_arg1 : W10 m ρ c (Proc.devRef .tc main_arg1) = (m ((c : Thread nD τ).loc main_arg1)) := (W10_of_ne m ρ c main_arg1 (by decide)).trans (W9_arg1 m ρ c)
theorem W10_arg2 : W10 m ρ c (Proc.devRef .tc main_arg2) = (m ((c : Thread nD τ).loc main_arg2)) := (W10_of_ne m ρ c main_arg2 (by decide)).trans (W9_arg2 m ρ c)
theorem W10_arg5 : W10 m ρ c (Proc.devRef .tc main_arg5) = (m ((c : Thread nD τ).loc main_arg5)) := (W10_of_ne m ρ c main_arg5 (by decide)).trans (W9_arg5 m ρ c)
theorem W10_arg6 : W10 m ρ c (Proc.devRef .tc main_arg6) = (m ((c : Thread nD τ).loc main_arg6)) := (W10_of_ne m ρ c main_arg6 (by decide)).trans (W9_arg6 m ρ c)
theorem W10_arg7 : W10 m ρ c (Proc.devRef .tc main_arg7) = (m ((c : Thread nD τ).loc main_arg7)) := (W10_of_ne m ρ c main_arg7 (by decide)).trans (W9_arg7 m ρ c)
theorem W10_arg8 : W10 m ρ c (Proc.devRef .tc main_arg8) = (m ((c : Thread nD τ).loc main_arg8)) := (W10_of_ne m ρ c main_arg8 (by decide)).trans (W9_arg8 m ρ c)
theorem W10_arg9 : W10 m ρ c (Proc.devRef .tc main_arg9) = (m ((c : Thread nD τ).loc main_arg9)) := (W10_of_ne m ρ c main_arg9 (by decide)).trans (W9_arg9 m ρ c)
theorem W10_arg10 : W10 m ρ c (Proc.devRef .tc main_arg10) = (m ((c : Thread nD τ).loc main_arg10)) := (W10_of_ne m ρ c main_arg10 (by decide)).trans (W9_arg10 m ρ c)

/-! ## Host stretch 3 -/

theorem W11_agg : W11 m ρ c (Proc.devRef .tc main_v61) = Cert.GraphNet.aggregate (m ((c : Thread nD τ).loc main_arg1)) (m ((c : Thread nD τ).loc main_arg2)) (x2 m c) := by
  refine (ops3_agg (W10 m ρ c)).trans ?_
  rw [W10_arg1, W10_arg2, W10_x]
theorem W11_weight : W11 m ρ c (Proc.devRef .tc main_v63) = Cert.GraphNet.weight2 (m ((c : Thread nD τ).loc main_arg5)) := by
  refine (ops3_weight (W10 m ρ c)).trans ?_
  rw [W10_arg5]
theorem W11_bias : W11 m ρ c (Proc.devRef .tc main_v65) = Cert.GraphNet.bias2 (m ((c : Thread nD τ).loc main_arg6)) := by
  refine (ops3_bias (W10 m ρ c)).trans ?_
  rw [W10_arg6]
theorem W11_v14 : W11 m ρ c (Proc.devRef .tc main_v14) = Cert.GraphNet.degNorm (m ((c : Thread nD τ).loc main_arg2)) := (ops3_keep_main_v14 (W10 m ρ c)).trans (W10_v14 m ρ c)
theorem W11_arg7 : W11 m ρ c (Proc.devRef .tc main_arg7) = (m ((c : Thread nD τ).loc main_arg7)) := (ops3_keep_main_arg7 (W10 m ρ c)).trans (W10_arg7 m ρ c)
theorem W11_arg8 : W11 m ρ c (Proc.devRef .tc main_arg8) = (m ((c : Thread nD τ).loc main_arg8)) := (ops3_keep_main_arg8 (W10 m ρ c)).trans (W10_arg8 m ρ c)
theorem W11_arg9 : W11 m ρ c (Proc.devRef .tc main_arg9) = (m ((c : Thread nD τ).loc main_arg9)) := (ops3_keep_main_arg9 (W10 m ρ c)).trans (W10_arg9 m ρ c)
theorem W11_arg10 : W11 m ρ c (Proc.devRef .tc main_arg10) = (m ((c : Thread nD τ).loc main_arg10)) := (ops3_keep_main_arg10 (W10 m ρ c)).trans (W10_arg10 m ρ c)

/-! ## Region 3 -/

theorem W12_h : W12 m ρ c (Proc.devRef .tc main_v66) = h3 m c := by
  refine (W12_arr m ρ c 4).trans ((Cert.Regions.conv3_array (V11 m ρ) c).trans ?_)
  show Cert.GraphNet.conv (W11 m ρ c (Proc.devRef .tc main_v61)) (W11 m ρ c (Proc.devRef .tc main_v63)) (W11 m ρ c (Proc.devRef .tc main_v65)) (W11 m ρ c (Proc.devRef .tc main_v14)) = _
  rw [W11_agg, W11_weight, W11_bias, W11_v14]; rfl
theorem W12_arg7 : W12 m ρ c (Proc.devRef .tc main_arg7) = (m ((c : Thread nD τ).loc main_arg7)) := (W12_of_ne m ρ c main_arg7 (by decide)).trans (W11_arg7 m ρ c)
theorem W12_arg8 : W12 m ρ c (Proc.devRef .tc main_arg8) = (m ((c : Thread nD τ).loc main_arg8)) := (W12_of_ne m ρ c main_arg8 (by decide)).trans (W11_arg8 m ρ c)
theorem W12_arg9 : W12 m ρ c (Proc.devRef .tc main_arg9) = (m ((c : Thread nD τ).loc main_arg9)) := (W12_of_ne m ρ c main_arg9 (by decide)).trans (W11_arg9 m ρ c)
theorem W12_arg10 : W12 m ρ c (Proc.devRef .tc main_arg10) = (m ((c : Thread nD τ).loc main_arg10)) := (W12_of_ne m ρ c main_arg10 (by decide)).trans (W11_arg10 m ρ c)

end Cert.KernelIdeal.Fold

end
-- ==== Proof.ReadoutValue.lean ====
/-
  The readout, entry by entry.

  Node `p`'s one output is `(∑ k : Fin 128, max (h₁ (p, k)) 0 * W₂ (k, 0)) + b₂ 0` where the hidden channel
  `h₁ (p, k) = (∑ j : Fin 128, h (p, j) * W₁ (j, k)) + b₁ k`. Here the host's composition (`readout`: a dense layer, the
  maximum with zero, a product with a one-column matrix, a bias) and the kernel body's stored value are each read at an
  entry `(p, u)` and shown to be that expression of their operands: the host's over the whole 50000-node array, the
  body's over one block of 5000 nodes.
-/
import proofs.«100711_j8830452760706_2_alg».proof.Proof.EmbedValue

noncomputable section

open scoped BigOperators

namespace Cert.ReadoutValue

open Idealize.ShloMosaic Idealize.ShloMosaic.ValueIdx
open Cert.EmbedValue (affineEntry)

/-- The two-layer readout at entry `(p, u)`, for `M` rows of 128 channels. -/
def readoutEntry {M : ℕ} (h : (⟨2, ![M, 128]⟩ : Shape).Idx → EReal) (W1 : (⟨2, ![128, 128]⟩ : Shape).Idx → EReal)
    (b1 : (⟨1, ![128]⟩ : Shape).Idx → EReal) (W2 : (⟨2, ![128, 1]⟩ : Shape).Idx → EReal)
    (b2 : (⟨1, ![1]⟩ : Shape).Idx → EReal) (p : Fin M) (u : Fin 1) : EReal :=
  (∑ k : Fin 128, max (affineEntry h W1 b1 p k) 0 * W2 (ix2 k u)) + b2 (ix1 (0 : Fin 1))

/-! ## The host's side -/

section Host
open Cert.ReferenceIdeal Cert.ReferenceIdeal.Gen

/-- The host's 50000 × 128 by 128 × 128 product at an entry. -/
theorem hostProduct_entry (x : FVec Ideal S50000x128 .f32) (W : FVec Ideal S128x128 .f32) (p : Fin 50000) (q : Fin 128) :
    Host.dotGeneral (F := Ideal) dot_S50000x128_S128x128_S50000x128_1_0_0_1_n_n none x W (ix2 p q)
      = ∑ k : Fin 128, x (ix2 p k) * W (ix2 k q) := by
  simp only [Host.dotGeneral]
  rw [Ideal.dotGeneral_apply]
  exact Cert.ProductEntry.sum_apply dot_S50000x128_S128x128_S50000x128_1_0_0_1_n_n rfl rfl
    (fun i k => by
      unfold DotDims.lhsIdx
      rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
      rfl)
    (fun i k => dot_S50000x128_S128x128_S50000x128_1_0_0_1_n_n.lhsIdx_val_of_single rfl i k)
    (fun i k => dot_S50000x128_S128x128_S50000x128_1_0_0_1_n_n.rhsIdx_val_of_single rfl i k)
    (fun i k => by
      unfold DotDims.rhsIdx
      rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
      rfl)
    x W p q

/-- The host's 50000 × 128 by 128 × 1 product at an entry. -/
theorem hostColumnProduct_entry (x : FVec Ideal S50000x128 .f32) (W : FVec Ideal S128x1 .f32) (p : Fin 50000) (u : Fin 1) :
    Host.dotGeneral (F := Ideal) dot_S50000x128_S128x1_S50000x1_1_0_0_1_n_n none x W (ix2 p u)
      = ∑ k : Fin 128, x (ix2 p k) * W (ix2 k u) := by
  simp only [Host.dotGeneral]
  rw [Ideal.dotGeneral_apply]
  exact Cert.ProductEntry.sum_apply dot_S50000x128_S128x1_S50000x1_1_0_0_1_n_n rfl rfl
    (fun i k => by
      unfold DotDims.lhsIdx
      rw [dif_neg (show ¬(0 : Fin S50000x128.rank) ∈ dot_S50000x128_S128x1_S50000x1_1_0_0_1_n_n.lhsBatch by decide), dif_pos (show (0 : Fin S50000x128.rank) ∈ dot_S50000x128_S128x1_S50000x1_1_0_0_1_n_n.lhsNonContracting by decide)]
      rfl)
    (fun i k => dot_S50000x128_S128x1_S50000x1_1_0_0_1_n_n.lhsIdx_val_of_single rfl i k)
    (fun i k => dot_S50000x128_S128x1_S50000x1_1_0_0_1_n_n.rhsIdx_val_of_single rfl i k)
    (fun i k => by
      unfold DotDims.rhsIdx
      rw [dif_neg (show ¬(1 : Fin S128x1.rank) ∈ dot_S50000x128_S128x1_S50000x1_1_0_0_1_n_n.rhsBatch by decide), dif_pos (show (1 : Fin S128x1.rank) ∈ dot_S50000x128_S128x1_S50000x1_1_0_0_1_n_n.rhsNonContracting by decide)]
      rfl)
    x W p u

/-- The dense layer on 128 channels at an entry. -/
theorem dense_entry (x : FVec Ideal S50000x128 .f32) (W : FVec Ideal S128x128 .f32) (b : FVec Ideal S128 .f32)
    (p : Fin 50000) (q : Fin 128) :
    Cert.GraphNet.dense x W b (ix2 p q) = affineEntry x W b p q := by
  unfold Cert.GraphNet.dense affineEntry
  refine (addf_apply _ _ _).trans ?_
  rw [hostProduct_entry, Cert.EmbedValue.biasRows_entry]

/-- The all-zero feature array at an entry. -/
theorem zeroFeat_entry (p : Fin 50000) (q : Fin 128) : Cert.GraphNet.zeroFeat (ix2 p q) = 0 := by
  unfold Cert.GraphNet.zeroFeat
  refine (broadcastInDim_apply _ bcast_S_S50000x128 _ (ix2 p q) ix0 (fun a => a.elim0)).trans ?_
  exact Ideal.ofBits_zero_f32

/-- The maximum with zero at an entry. -/
theorem relu_entry (x : FVec Ideal S50000x128 .f32) (p : Fin 50000) (q : Fin 128) :
    Cert.GraphNet.relu x (ix2 p q) = max (x (ix2 p q)) 0 := by
  unfold Cert.GraphNet.relu
  refine (maximumf_apply _ _ _).trans ?_
  rw [zeroFeat_entry]

/-- The second bias, one number, spread over every node, at an entry. -/
theorem outBias_entry (b2 : FVec Ideal S1 .f32) (p : Fin 50000) (u : Fin 1) :
    broadcastInDim S50000x1 ![0, 1] bcast_S1x1_S50000x1_0_1 (broadcastInDim S1x1 ![1] bcast_S1_S1x1_1 b2) (ix2 p u)
      = b2 (ix1 (0 : Fin 1)) := by
  refine (broadcastInDim_apply _ bcast_S1x1_S50000x1_0_1 _ (ix2 p u) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else u.val; rw [if_pos rfl])).trans ?_
  exact broadcastInDim_apply _ bcast_S1_S1x1_1 b2 (ix2 (0 : Fin 1) (0 : Fin 1)) (ix1 (0 : Fin 1)) (fun a => match a with
    | ⟨0, _⟩ => by show 0 = if (1 : Nat) = 1 then 0 else 0; rw [if_pos rfl])

/-- The host's readout at an entry. -/
theorem readout_entry (h : FVec Ideal S50000x128 .f32) (W1 : FVec Ideal S128x128 .f32) (b1 : FVec Ideal S128 .f32)
    (W2 : FVec Ideal S128x1 .f32) (b2 : FVec Ideal S1 .f32) (p : Fin 50000) (u : Fin 1) :
    Cert.GraphNet.readout h W1 b1 W2 b2 (ix2 p u) = readoutEntry h W1 b1 W2 b2 p u := by
  unfold Cert.GraphNet.readout readoutEntry
  refine (addf_apply _ _ _).trans ?_
  rw [hostColumnProduct_entry, outBias_entry]
  congr 1
  exact Finset.sum_congr rfl fun k _ => by rw [relu_entry, dense_entry]

end Host

/-! ## The kernel body's side -/

section Body
open Cert.KernelIdeal Cert.KernelIdeal.Gen

/-- The body's 5000 × 128 by 128 × 128 matrix multiplication onto zero, at an entry. -/
theorem bodyProduct_entry (x : FVec Ideal S5000x128 .bf16) (W : FVec Ideal S128x128 .bf16) (p : Fin 5000) (q : Fin 128) :
    matmul (F := Ideal) dot_S5000x128_S128x128_S5000x128_1_0_0_1_n_n none x W (constant S5000x128 .f32 0x00000000#32) (ix2 p q)
      = ∑ k : Fin 128, x (ix2 p k) * W (ix2 k q) := by
  refine (Ideal.matmul_constant_zero_apply dot_S5000x128_S128x128_S5000x128_1_0_0_1_n_n none x W (ix2 p q)).trans ?_
  exact Cert.ProductEntry.sum_apply dot_S5000x128_S128x128_S5000x128_1_0_0_1_n_n rfl rfl
    (fun i k => by
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl)
    (fun i k => dot_S5000x128_S128x128_S5000x128_1_0_0_1_n_n.lhsIdx_val_of_single rfl i k)
    (fun i k => dot_S5000x128_S128x128_S5000x128_1_0_0_1_n_n.rhsIdx_val_of_single rfl i k)
    (fun i k => by
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
    x W p q

/-- The body's 5000 × 128 by 128 × 1 matrix multiplication onto zero, at an entry. -/
theorem bodyColumnProduct_entry (x : FVec Ideal S5000x128 .bf16) (W : FVec Ideal S128x1 .bf16) (p : Fin 5000) (u : Fin 1) :
    matmul (F := Ideal) dot_S5000x128_S128x1_S5000x1_1_0_0_1_n_n none x W (constant S5000x1 .f32 0x00000000#32) (ix2 p u)
      = ∑ k : Fin 128, x (ix2 p k) * W (ix2 k u) := by
  refine (Ideal.matmul_constant_zero_apply dot_S5000x128_S128x1_S5000x1_1_0_0_1_n_n none x W (ix2 p u)).trans ?_
  exact Cert.ProductEntry.sum_apply dot_S5000x128_S128x1_S5000x1_1_0_0_1_n_n rfl rfl
    (fun i k => by
      unfold DotDims.lhsIdx
      rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
      rfl)
    (fun i k => dot_S5000x128_S128x1_S5000x1_1_0_0_1_n_n.lhsIdx_val_of_single rfl i k)
    (fun i k => dot_S5000x128_S128x1_S5000x1_1_0_0_1_n_n.rhsIdx_val_of_single rfl i k)
    (fun i k => by
      unfold DotDims.rhsIdx
      rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
      rfl)
    x W p u

/-- The hidden layer of the block's nodes: the body's value before its second multiplication. -/
def hidden (v0 : FVec Ideal S5000x128 .f32) (v3 : FVec Ideal S128x128 .f32) (v6 : FVec Ideal S128 .f32) :
    FVec Ideal S5000x128 .f32 :=
  maximumf
    (addf
      (matmul dot_S5000x128_S128x128_S5000x128_1_0_0_1_n_n none
        (truncf .bf16 (shapeCast S5000x128 v0 shapeCasts_S5000x128_S5000x128) bitsLt_bf16_f32)
        (truncf .bf16 v3 bitsLt_bf16_f32) (constant S5000x128 .f32 0x00000000#32))
      (broadcastTo S5000x128 (shapeCast S1x128 v6 shapeCasts_S128_S1x128) broadcasts_S1x128_S5000x128))
    (broadcast S5000x128 (Scalar.ofBits .f32 0x00000000#32))

/-- The hidden layer at an entry. -/
theorem hidden_entry (v0 : FVec Ideal S5000x128 .f32) (v3 : FVec Ideal S128x128 .f32) (v6 : FVec Ideal S128 .f32)
    (p : Fin 5000) (k : Fin 128) :
    hidden v0 v3 v6 (ix2 p k) = max (affineEntry v0 v3 v6 p k) 0 := by
  unfold hidden affineEntry
  refine (maximumf_apply _ _ _).trans ?_
  refine congrArg₂ max ?_ Ideal.ofBits_zero_f32
  refine (addf_apply _ _ _).trans ?_
  rw [bodyProduct_entry, Cert.EmbedValue.bodyBias_entry, shapeCast_self]
  rfl

/-- The body's stored value is the second multiplication of the hidden layer plus the spread bias. -/
theorem k4_pay1_eq (v0 : FVec Ideal S5000x128 .f32) (v3 : FVec Ideal S128x128 .f32) (v6 : FVec Ideal S128 .f32)
    (v13 : FVec Ideal S128x1 .f32) (v16 : FVec Ideal S1 .f32) :
    k4_pay1 (F := Ideal) v0 v3 v6 v13 v16
      = addf
          (matmul dot_S5000x128_S128x1_S5000x1_1_0_0_1_n_n none (truncf .bf16 (hidden v0 v3 v6) bitsLt_bf16_f32)
            (truncf .bf16 v13 bitsLt_bf16_f32) (constant S5000x1 .f32 0x00000000#32))
          (broadcastTo S5000x1 (shapeCast S1x1 v16 shapeCasts_S1_S1x1) broadcasts_S1x1_S5000x1) := rfl

/-- The one-number bias spread over the block's nodes, at an entry. -/
theorem bodyOutBias_entry (v16 : FVec Ideal S1 .f32) (p : Fin 5000) (u : Fin 1) :
    broadcastTo S5000x1 (shapeCast S1x1 v16 shapeCasts_S1_S1x1) broadcasts_S1x1_S5000x1 (ix2 p u) = v16 (ix1 (0 : Fin 1)) := by
  refine (broadcastTo_apply _ broadcasts_S1x1_S5000x1 (ix2 p u) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else u.val; rw [if_pos rfl])).trans ?_
  refine shapeCast_apply v16 shapeCasts_S1_S1x1 (ix2 (0 : Fin 1) (0 : Fin 1)) (ix1 (0 : Fin 1)) ?_
  rw [Shape.rowMajor_val_two, Shape.rowMajor_val_one]
  rfl

/-- The body's stored value (the readout of the block's nodes) at an entry. -/
theorem k4_pay1_entry (v0 : FVec Ideal S5000x128 .f32) (v3 : FVec Ideal S128x128 .f32) (v6 : FVec Ideal S128 .f32)
    (v13 : FVec Ideal S128x1 .f32) (v16 : FVec Ideal S1 .f32) (p : Fin 5000) (u : Fin 1) :
    k4_pay1 (F := Ideal) v0 v3 v6 v13 v16 (ix2 p u) = readoutEntry v0 v3 v6 v13 v16 p u := by
  rw [k4_pay1_eq]
  unfold readoutEntry
  refine (addf_apply _ _ _).trans ?_
  rw [bodyColumnProduct_entry, bodyOutBias_entry]
  congr 1
  exact Finset.sum_congr rfl fun k _ => by
    show hidden v0 v3 v6 (ix2 p k) * v13 (ix2 k u) = _
    rw [hidden_entry]

end Body

end Cert.ReadoutValue

end
-- ==== Proof.ReadoutRegion.lean ====
/-
  The readout region: from blocks to the whole array.

  The region visits ten blocks of 5000 nodes. At block `t` its body reads rows `5000 t … 5000 t + 4999` of the last
  convolution's output and the whole of the two weight matrices and the two biases, and stores the readout of those
  rows. So what block `t` writes back is block `t` of the host's readout of the whole arrays; the ten blocks cover
  every node; hence the output column ends holding the host's readout.
-/
import proofs.«100711_j8830452760706_2_alg».proof.Proof.ReadoutValue
import proofs.«100711_j8830452760706_2_alg».proof.Proof.Gen.KernelIdeal.Frame
import Idealize.ShloMosaic.Lib.Pipeline.Value

noncomputable section

open scoped BigOperators

namespace Cert.Regions

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

private theorem zeros2 : (![0, 0] : Fin 2 → Nat) = fun _ => 0 := funext fun a => by fin_cases a <;> rfl
private theorem zeros1 : (![0] : Fin 1 → Nat) = fun _ => 0 := funext fun a => by fin_cases a; rfl

/-- The block indices of the readout region's windows at grid point `t`: the node-channel window and the output
    window are at block row `t`; the two weight windows and the two bias windows stay at their one block. -/
theorem readout_block_indices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

/-- The readout of a block of rows is the rows of the readout of the whole array: entry `y` of the body's stored
    value, over a block that holds rows `r …` of the node channels, is entry `i` of the host's composition when `i`
    is `y` moved down by `r` rows. -/
theorem readout_block_entry (x0 : FVec Ideal S5000x128 .f32) (x1 : FVec Ideal S128x128 .f32) (x2 : FVec Ideal S128 .f32)
    (x3 : FVec Ideal S128x1 .f32) (x4 : FVec Ideal S1 .f32)
    (H : FVec Ideal S50000x128 .f32) (W1 : FVec Ideal S128x128 .f32) (b1 : FVec Ideal S128 .f32)
    (W2 : FVec Ideal S128x1 .f32) (b2 : FVec Ideal S1 .f32)
    (y : S5000x1.Idx) (i : S50000x1.Idx) (r : ℕ)
    (hi0 : (i 0).val = r + (y 0).val) (hi1 : (i 1).val = (y 1).val)
    (h0 : ∀ (j : S5000x128.Idx) (J : S50000x128.Idx), (J 0).val = r + (j 0).val → (J 1).val = (j 1).val → x0 j = H J)
    (h1 : x1 = W1) (h2 : x2 = b1) (h3 : x3 = W2) (h4 : x4 = b2) :
    k4_pay1 (F := Ideal) x0 x1 x2 x3 x4 y = Cert.GraphNet.readout H W1 b1 W2 b2 i := by
  obtain ⟨p, u, rfl⟩ : ∃ (p : Fin 5000) (u : Fin 1), y = ix2 p u := ⟨y 0, y 1, eq_ix2 y⟩
  obtain ⟨P, U, rfl⟩ : ∃ (P : Fin 50000) (U : Fin 1), i = ix2 P U := ⟨i 0, i 1, eq_ix2 i⟩
  have hP : P.val = r + p.val := hi0
  have hU : U = u := Fin.ext hi1
  subst hU h1 h2 h3 h4
  rw [Cert.ReadoutValue.k4_pay1_entry, Cert.ReadoutValue.readout_entry]
  unfold Cert.ReadoutValue.readoutEntry Cert.EmbedValue.affineEntry
  congr 1
  refine Finset.sum_congr rfl fun k _ => ?_
  congr 3
  exact Finset.sum_congr rfl fun j _ => by rw [h0 (ix2 p j) (ix2 P j) hP rfl]

/-- The node-channel window's block at point `t` is rows `5000 t …` of the last convolution's output. -/
theorem readout_channels_block (c : Dev nD) (t : Fin cfg4.N) (j : S5000x128.Idx) (J : S50000x128.Idx)
    (e0 : (J 0).val = 5000 * t.val + (j 0).val) (e1 : (J 1).val = (j 1).val) :
    (iblk4 V c 0 t : FVec Ideal S5000x128 .f32) j = (V c main_v66 : FVec Ideal S50000x128 .f32) J := by
  obtain ⟨f0, f1, -⟩ := readout_block_indices t
  unfold iblk4
  rw [View.read_apply]
  show V c main_v66 _ = V c main_v66 _
  congr 1
  funext a
  apply Fin.ext
  match a with
  | ⟨0, _⟩ => show win4_0.index t (0 : Fin 2) * 5000 + 1 * (j 0).val = (J 0).val; rw [f0, e0]; omega
  | ⟨1, _⟩ => show win4_0.index t (1 : Fin 2) * 128 + 1 * (j 1).val = (J 1).val; rw [f1, e1]; omega

/-- The first weight window's block is the whole first weight matrix at every point. -/
theorem readout_weight1_block (c : Dev nD) (t : Fin cfg4.N) :
    (iblk4 V c 1 t : FVec Ideal S128x128 .f32) = (V c main_arg7 : FVec Ideal S128x128 .f32) := by
  obtain ⟨-, -, f0, f1, -⟩ := readout_block_indices t
  funext j
  unfold iblk4
  rw [View.read_apply]
  show V c main_arg7 _ = V c main_arg7 _
  congr 1
  funext a
  apply Fin.ext
  match a with
  | ⟨0, _⟩ => show win4_1.index t (0 : Fin 2) * 128 + 1 * (j 0).val = (j 0).val; rw [f0]; omega
  | ⟨1, _⟩ => show win4_1.index t (1 : Fin 2) * 128 + 1 * (j 1).val = (j 1).val; rw [f1]; omega

/-- The first bias window's block is the whole first bias row at every point. -/
theorem readout_bias1_block (c : Dev nD) (t : Fin cfg4.N) :
    (iblk4 V c 2 t : FVec Ideal S128 .f32) = (V c main_arg8 : FVec Ideal S128 .f32) := by
  obtain ⟨-, -, -, -, f0, -⟩ := readout_block_indices t
  funext j
  unfold iblk4
  rw [View.read_apply]
  show V c main_arg8 _ = V c main_arg8 _
  congr 1
  funext a
  apply Fin.ext
  match a with
  | ⟨0, _⟩ => show win4_2.index t (0 : Fin 1) * 128 + 1 * (j 0).val = (j 0).val; rw [f0]; omega

/-- The second weight window's block is the whole one-column weight matrix at every point. -/
theorem readout_weight2_block (c : Dev nD) (t : Fin cfg4.N) :
    (iblk4 V c 3 t : FVec Ideal S128x1 .f32) = (V c main_arg9 : FVec Ideal S128x1 .f32) := by
  obtain ⟨-, -, -, -, -, f0, f1, -⟩ := readout_block_indices t
  funext j
  unfold iblk4
  rw [View.read_apply]
  show V c main_arg9 _ = V c main_arg9 _
  congr 1
  funext a
  apply Fin.ext
  match a with
  | ⟨0, _⟩ => show win4_3.index t (0 : Fin 2) * 128 + 1 * (j 0).val = (j 0).val; rw [f0]; omega
  | ⟨1, _⟩ => show win4_3.index t (1 : Fin 2) * 1 + 1 * (j 1).val = (j 1).val; rw [f1]; omega

/-- The second bias window's block is the one-number bias at every point. -/
theorem readout_bias2_block (c : Dev nD) (t : Fin cfg4.N) :
    (iblk4 V c 4 t : FVec Ideal S1 .f32) = (V c main_arg10 : FVec Ideal S1 .f32) := by
  obtain ⟨-, -, -, -, -, -, -, f0, -⟩ := readout_block_indices t
  funext j
  unfold iblk4
  rw [View.read_apply]
  show V c main_arg10 _ = V c main_arg10 _
  congr 1
  funext a
  apply Fin.ext
  match a with
  | ⟨0, _⟩ => show win4_4.index t (0 : Fin 1) * 1 + 1 * (j 0).val = (j 0).val; rw [f0]; omega

/-- What point `t` writes back into the output column is block `t` of the host's readout of the arrays as the
    region finds them. -/
theorem readout_flushed (c : Dev nD) (t : Fin cfg4.N) :
    (dat4 (F := Ideal) V c).flushed 5 t = ((cfg4.win 5).blk t).view.read (Elt Ideal)
      (Cert.GraphNet.readout (V c main_v66) (V c main_arg7) (V c main_arg8) (V c main_arg9) (V c main_arg10)) := by
  show (cfg4.win 5).cut (grid4.coords t) ((dat4 V c).after 5 t) = _
  rw [after4_5]
  unfold out4_5
  rw [View.canon_unit_zero zeros2]
  simp only [View.ld_unit_zero (S := S5000x128) zeros2, View.ld_unit_zero (S := S128x128) zeros2,
    View.ld_unit_zero (S := S128) zeros1, View.ld_unit_zero (S := S128x1) zeros2, View.ld_unit_zero (S := S1) zeros1]
  obtain ⟨-, -, -, -, -, -, -, -, f0, f1⟩ := readout_block_indices t
  funext y
  rw [View.read_apply]
  refine readout_block_entry _ _ _ _ _ _ _ _ _ _ y _ (5000 * t.val) ?_ ?_
    (fun j J e0 e1 => readout_channels_block V c t j J e0 e1) (readout_weight1_block V c t) (readout_bias1_block V c t)
    (readout_weight2_block V c t) (readout_bias2_block V c t)
  · show win4_5.index t (0 : Fin 2) * 5000 + 1 * (y 0).val = 5000 * t.val + (y 0).val
    rw [f0]; omega
  · show win4_5.index t (1 : Fin 2) * 1 + 1 * (y 1).val = (y 1).val
    rw [f1]; omega

/-- Every node's row is in the block of the point `row / 5000`. -/
theorem readout_cover (i : S50000x1.Idx) :
    ∃ t : Fin cfg4.N, (cfg4.win 5).flush t = true ∧ i ∈ ((cfg4.win 5).blk t).view.set := by
  have hN : cfg4.N = 10 := N_4
  have hi0 : (i 0).val < 50000 := (i 0).isLt
  have hi1 : (i 1).val < 1 := (i 1).isLt
  let t : Fin cfg4.N := ⟨(i 0).val / 5000, by rw [hN]; omega⟩
  have ht : t.val = (i 0).val / 5000 := rfl
  obtain ⟨-, -, -, -, -, -, -, -, f0, f1⟩ := readout_block_indices t
  refine ⟨t, flush4_5 t, ?_⟩
  show i ∈ ((View.whole main_v67).slice (win4_5.rect t)).set
  rw [View.set_slice_whole, Rect.mem_set_unit]
  intro a
  match a with
  | ⟨0, _⟩ =>
    show win4_5.index t (0 : Fin 2) * 5000 ≤ (i 0).val ∧ (i 0).val < win4_5.index t (0 : Fin 2) * 5000 + 5000
    rw [f0, ht]; omega
  | ⟨1, _⟩ =>
    show win4_5.index t (1 : Fin 2) * 1 ≤ (i 1).val ∧ (i 1).val < win4_5.index t (1 : Fin 2) * 1 + 1
    rw [f1]; omega

/-- THE READOUT REGION'S OUTPUT: after the ten points the output column holds the host's readout of the arrays the
    region was entered with. -/
theorem readout_array (c : Dev nD) :
    (dat4 (F := Ideal) V c).arrAt 5 cfg4.N
      = Cert.GraphNet.readout (V c main_v66) (V c main_arg7) (V c main_arg8) (V c main_arg9) (V c main_arg10) :=
  (dat4 (F := Ideal) V c).arrAt_eq_of_cover 5 _ (fun t _ => readout_flushed V c t) readout_cover

end Cert.Regions

end
-- ==== Proof.FoldResult.lean ====
/-
  The end of the fold at the result buffer: the last region leaves the readout of the third convolution's output,
  and that is the network map of the arguments as launched.
-/
import proofs.«100711_j8830452760706_2_alg».proof.Proof.FoldChain
import proofs.«100711_j8830452760706_2_alg».proof.Proof.ReadoutRegion

set_option maxRecDepth 16384

noncomputable section

namespace Cert.KernelIdeal.Fold

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The result buffer at the end of the fold is the network map of the argument arrays as launched. -/
theorem W13_result : W13 m ρ c (Proc.devRef .tc main_v67)
    = Cert.GraphNet.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W13_arr m ρ c 5).trans ((Cert.Regions.readout_array (V12 m ρ) c).trans ?_)
  show Cert.GraphNet.readout (W12 m ρ c (Proc.devRef .tc main_v66)) (W12 m ρ c (Proc.devRef .tc main_arg7)) (W12 m ρ c (Proc.devRef .tc main_arg8)) (W12 m ρ c (Proc.devRef .tc main_arg9)) (W12 m ρ c (Proc.devRef .tc main_arg10)) = _
  rw [W12_h, W12_arg7, W12_arg8, W12_arg9, W12_arg10]
  rfl

end Cert.KernelIdeal.Fold

end
-- ==== Proof.lean ====
/-
  The certificate of a graph network on 50000 nodes and 640000 edges: an embedding of 4 node features into 128
  channels, three graph convolutions with symmetric degree normalisation, and a two-layer readout to one channel.

  Both programs compute the two degree columns (edge counts clamped below by one, to the power -1/2), and then
      x₀ = (X · W_e + b_e) scaled row-wise by the out-degree column,
      xₗ = max (((A xₗ₋₁) scaled by the in-degree column) · Wₗ + bₗ) 0, scaled by the out-degree column  (l = 1, 2),
      h₃ = max (((A x₂) scaled by the in-degree column) · W₃ + b₃) 0,
      out = (max (h₃ · W_o1 + b_o1) 0) · W_o2 + b_o2,
  where (A x) n is the sum of x at the sources of the edges into n. The reference does all of it with host operations
  on whole arrays. The kernel program does the dense steps in five tiled regions of 5000 rows each, with the row scalings
  folded into the regions, and keeps the degree columns and the aggregation on the host, narrowing the gathered rows to
  bf16 and widening them back — the identity on the extended reals. A row of a product depends only on the same row of
  the left factor, so the tiling by rows changes no entry; the products are the same sums over the contracted axis.
  Hence both results are one function of the arguments, `Cert.GraphNet.network`, with no algebraic law needed beyond
  reading each operation at an index: the precondition is not used for the value.

  The kernel program's run with its result named (Proof/KernelRun.lean) ends in the fold of buffer contents through the
  program's segments; Proof/FoldDegrees, FoldStretch1-3, FoldChain and FoldResult read that fold at the result buffer,
  each region's output array being the map proved for it (EmbedRegion, ConvRegion1-3, ReadoutRegion). The reference's
  run is its generated run, whose term is the network map on the nose (Proof/ReferenceNet.lean).
-/
import proofs.«100711_j8830452760706_2_alg».proof.Defs
import proofs.«100711_j8830452760706_2_alg».proof.Proof.Gen.Kernel
import proofs.«100711_j8830452760706_2_alg».proof.Proof.Gen.Kernel.Skeleton
import proofs.«100711_j8830452760706_2_alg».proof.Proof.Gen.Kernel.Launch
import proofs.«100711_j8830452760706_2_alg».proof.Proof.Gen.Kernel.Points
import proofs.«100711_j8830452760706_2_alg».proof.Proof.Gen.Kernel.Frame
import proofs.«100711_j8830452760706_2_alg».proof.Proof.Gen.KernelIdeal
import proofs.«100711_j8830452760706_2_alg».proof.Proof.Gen.KernelIdeal.Skeleton
import proofs.«100711_j8830452760706_2_alg».proof.Proof.Gen.KernelIdeal.Launch
import proofs.«100711_j8830452760706_2_alg».proof.Proof.Gen.KernelIdeal.Points
import proofs.«100711_j8830452760706_2_alg».proof.Proof.Gen.KernelIdeal.Frame
import proofs.«100711_j8830452760706_2_alg».proof.Proof.Gen.ReferenceIdeal
import proofs.«100711_j8830452760706_2_alg».proof.Proof.Gen.Pre_finite_inputs
import proofs.«100711_j8830452760706_2_alg».proof.Proof.Gen.ReferenceIdeal.Run
import proofs.«100711_j8830452760706_2_alg».proof.Proof.Gen.ReferenceIdeal.Read
import proofs.«100711_j8830452760706_2_alg».proof.Proof.KernelRun
import proofs.«100711_j8830452760706_2_alg».proof.Proof.ReferenceNet
import proofs.«100711_j8830452760706_2_alg».proof.Proof.FoldResult
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network map of the arguments. -/
theorem algebraic : Cert.algebraic_KernelIdeal_ReferenceIdeal := by
  intro m ρ m' ρ' _ hagree
  refine ⟨fun c => Cert.GraphNet.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Fold.W13_result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.GraphNet.reference_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
